-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x32x4 : Shape := ⟨3, ![100000, 32, 4]⟩
abbrev S100000 : Shape := ⟨1, ![100000]⟩
abbrev S100000x3 : Shape := ⟨2, ![100000, 3]⟩
abbrev S9x64 : Shape := ⟨2, ![9, 64]⟩
abbrev S64 : Shape := ⟨1, ![64]⟩
abbrev S_ : Shape := ⟨0, ![]⟩

class Facts : Prop where
  bcast_S_S100000x32x4 : S_.BroadcastsInDim S100000x32x4 (![] : Fin 0 → Fin S100000x32x4.rank)
  reducesTo_S100000x32x4_S_d0_1_2 : S100000x32x4.ReducesTo [0, 1, 2] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64 .f32) (main_arg7 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_cst_10 : FVec F S_ .f32 := constant S_ .f32 0x00000000#32
  let main_v29 : FVec F S64 .f32 := broadcastInDim S64 ![] bcast_S_S64 main_cst_10
  let main_v30 : IVec S64 1 := cmpf .oge main_arg7 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v28 main_v31
  main_v32

def fn {F : FTy → Type} [FloatOps F] (main_arg0 : FVec F S100000x32x4 .f32) (main_arg1 : IVec S100000 32) (main_arg2 : IVec S100000x3 32) (main_arg3 : FVec F S9x64 .f32) (main_arg4 : FVec F S64 .f32) (main_arg5 : FVec F S64 .f32) (main_arg6 : FVec F S64 .f32) (main_arg7 : FVec F S64 .f32) : IVec S_ 1 :=
  let main_v0 : FVec F S100000x32x4 .f32 := Host.absf main_arg0
  let main_cst : FVec F S_ .f32 := constant S_ .f32 0x7F800000#32
  let main_v1 : FVec F S100000x32x4 .f32 := broadcastInDim S100000x32x4 ![] bcast_S_S100000x32x4 main_cst
  let main_v2 : IVec S100000x32x4 1 := cmpf .olt main_v0 main_v1
  let main_c : IVec S_ 1 := constantI S_ 1 1#1
  let main_v3 : IVec S_ 1 := (fun x v => Host.reduce IntOp.andi x v reducesTo_S100000x32x4_S_d0_1_2 h_S_) main_v2 main_c
  let main_v4 : FVec F S9x64 .f32 := Host.absf main_arg3
  let main_cst_0 : FVec F S_ .f32 := constant S_ .f32 0x7F800000#32
  let main_v5 : FVec F S9x64 .f32 := broadcastInDim S9x64 ![] bcast_S_S9x64 main_cst_0
  let main_v6 : IVec S9x64 1 := cmpf .olt main_v4 main_v5
  let main_c_1 : IVec S_ 1 := constantI S_ 1 1#1
  let main_v7 : IVec S_ 1 := (fun x v => Host.reduce IntOp.andi x v reducesTo_S9x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_v13 main_v16
-- ==== Kernel.lean ====
abbrev S100000x32x4 : Shape := ⟨3, ![100000, 32, 4]⟩
abbrev S100000 : Shape := ⟨1, ![100000]⟩
abbrev S100000x3 : Shape := ⟨2, ![100000, 3]⟩
abbrev S9x64 : Shape := ⟨2, ![9, 64]⟩
abbrev S64 : Shape := ⟨1, ![64]⟩
abbrev S_ : Shape := ⟨0, ![]⟩
abbrev S1x64 : Shape := ⟨2, ![1, 64]⟩
abbrev S100000x1 : Shape := ⟨2, ![100000, 1]⟩
abbrev S100000x64 : Shape := ⟨2, ![100000, 64]⟩
abbrev S400x32x4 : Shape := ⟨3, ![400, 32, 4]⟩
abbrev S400x1 : Shape := ⟨2, ![400, 1]⟩
abbrev S400x3 : Shape := ⟨2, ![400, 3]⟩
abbrev S400x64 : Shape := ⟨2, ![400, 64]⟩
abbrev S400x32x3 : Shape := ⟨3, ![400, 32, 3]⟩
abbrev S400x1x3 : Shape := ⟨3, ![400, 1, 3]⟩
abbrev S400x1x1 : Shape := ⟨3, ![400, 1, 1]⟩
abbrev S400x32x1 : Shape := ⟨3, ![400, 32, 1]⟩
abbrev S400x32 : Shape := ⟨2, ![400, 32]⟩
abbrev S400x32x2 : Shape := ⟨3, ![400, 32, 2]⟩
abbrev S400x32x9 : Shape := ⟨3, ![400, 32, 9]⟩
abbrev S12800x9 : Shape := ⟨2, ![12800, 9]⟩
abbrev S12800x64 : Shape := ⟨2, ![12800, 64]⟩
abbrev S400x32x64 : Shape := ⟨3, ![400, 32, 64]⟩

abbrev nBuf : Space → Nat
  | .hbm => 20
  | .vmem => 10
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x3, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S_, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S64, .f32⟩
  | .hbm, ⟨13, _⟩ => ⟨S1x64, .f32⟩
  | .hbm, ⟨14, _⟩ => ⟨S9x64, .f32⟩
  | .hbm, ⟨15, _⟩ => ⟨S9x64, .f32⟩
  | .hbm, ⟨16, _⟩ => ⟨S64, .f32⟩
  | .hbm, ⟨17, _⟩ => ⟨S64, .f32⟩
  | .hbm, ⟨18, _⟩ => ⟨S100000x1, .i32⟩
  | .hbm, ⟨19, _⟩ => ⟨S100000x64, .f32⟩
  | .local _ .vmem, ⟨0, _⟩ => ⟨S400x32x4, .f32⟩
  | .local _ .vmem, ⟨1, _⟩ => ⟨S400x32x4, .f32⟩
  | .local _ .vmem, ⟨2, _⟩ => ⟨S400x1, .i32⟩
  | .local _ .vmem, ⟨3, _⟩ => ⟨S400x1, .i32⟩
  | .local _ .vmem, ⟨4, _⟩ => ⟨S400x3, .i32⟩
  | .local _ .vmem, ⟨5, _⟩ => ⟨S400x3, .i32⟩
  | .local _ .vmem, ⟨6, _⟩ => ⟨S9x64, .f32⟩
  | .local _ .vmem, ⟨7, _⟩ => ⟨S64, .f32⟩
  | .local _ .vmem, ⟨8, _⟩ => ⟨S400x64, .f32⟩
  | .local _ .vmem, ⟨9, _⟩ => ⟨S400x64, .f32⟩
  | _, _ => ⟨S100000x32x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S400x32x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x3 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S9x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S9x64_0_1 : S1x64.BroadcastsInDim S9x64 (![0, 1] : Fin 2 → Fin S9x64.rank)
  shapeCasts_S100000_S100000x1 : S100000.ShapeCasts S100000x1
  inb_S400x32x4_S400x32x4_0_0_0 : ∀ a, (![0, 0, 0] : Fin 3 → Nat) a + S400x32x4.size a ≤ S400x32x4.size a
  h_S400x32x4 : 0 < S400x32x4.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S400x3_S400x3_0_0 : ∀ a, (![0, 0] : Fin 2 → Nat) a + S400x3.size a ≤ S400x3.size a
  h_S400x3 : 0 < S400x3.numel
  slices_S400x32x4_o0_0_0_S400x32x3 : S400x32x4.Slices ![0, 0, 0] S400x32x3
  reduces_S400x32x3_S400x3 : S400x32x3.Reduces [1] S400x3
  shapeCasts_S400x3_S400x1x3 : S400x3.ShapeCasts S400x1x3
  shapeCasts_S400x1_S400x1x1 : S400x1.ShapeCasts S400x1x1
  broadcasts_S400x1x1_S400x1x3 : S400x1x1.Broadcasts S400x1x3
  broadcasts_S400x1x3_S400x32x3 : S400x1x3.Broadcasts S400x32x3
  slices_S400x3_o0_0_S400x1 : S400x3.Slices ![0, 0] S400x1
  slices_S400x3_o0_1_S400x1 : S400x3.Slices ![0, 1] S400x1
  slices_S400x32x4_o0_0_0_S400x32x1 : S400x32x4.Slices ![0, 0, 0] S400x32x1
  shapeCasts_S400x32x1_S400x32 : S400x32x1.ShapeCasts S400x32
  broadcasts_S400x1_S400x32 : S400x1.Broadcasts S400x32
  slices_S400x32x4_o0_0_1_S400x32x1 : S400x32x4.Slices ![0, 0, 1] S400x32x1
  shapeCasts_S400x32_S400x32x1 : S400x32.ShapeCasts S400x32x1
  concatenates_S400x32x1_S400x32x1_S400x32x2_d2 : Shape.Concatenates [S400x32x1, S400x32x1] S400x32x2 2
  concatenates_S400x32x4_S400x32x3_S400x32x2_S400x32x9_d2 : Shape.Concatenates [S400x32x4, S400x32x3, S400x32x2] S400x32x9 2
  iota_S400x32_d1_w32 : S400x32.Iotas .tc 32 [1]
  natLt_1_32 : 1 < 32
  broadcasts_S400x32x1_S400x32x9 : S400x32x1.Broadcasts S400x32x9
  shapeCasts_S400x32x9_S12800x9 : S400x32x9.ShapeCasts S12800x9
  inb_S9x64_S9x64_0_0 : ∀ a, (![0, 0] : Fin 2 → Nat) a + S9x64.size a ≤ S9x64.size a
  h_S9x64 : 0 < S9x64.numel
  shapeCasts_S9x64_S9x64 : S9x64.ShapeCasts S9x64
  inb_S64_S64_0 : ∀ a, (![0] : Fin 1 → Nat) a + S64.size a ≤ S64.size a
  h_S64 : 0 < S64.numel
  shapeCasts_S64_S64 : S64.ShapeCasts S64
  shapeCasts_S64_S1x64 : S64.ShapeCasts S1x64
  broadcasts_S1x64_S12800x64 : S1x64.Broadcasts S12800x64
  shapeCasts_S12800x64_S400x32x64 : S12800x64.ShapeCasts S400x32x64
  reduces_S400x32x64_S400x64 : S400x32x64.Reduces [1] S400x64
  inb_S400x64_S400x64_0_0 : ∀ a, (![0, 0] : Fin 2 → Nat) a + S400x64.size a ≤ S400x64.size a
  h_S400x64 : 0 < S400x64.numel
  dot_S12800x9_S9x64_S12800x64_1_0_0_1_n_n_wf : DotDims.WF S12800x9 S9x64 S12800x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x32x4.size a ≤ S100000x32x4.size a
  hwx0_0 : ∀ i : grid0.Coords, EltTy.bits .f32 = 32 ∨ (Rect.block (s := S100000x32x4) S400x32x4.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x1.size a ≤ S100000x1.size a
  hwx0_1 : ∀ i : grid0.Coords, EltTy.bits .i32 = 32 ∨ (Rect.block (s := S100000x1) S400x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x3.size a ≤ S100000x3.size a
  hwx0_2 : ∀ i : grid0.Coords, EltTy.bits .i32 = 32 ∨ (Rect.block (s := S100000x3) S400x3.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S9x64.size a ≤ S9x64.size a
  hwx0_3 : ∀ i : grid0.Coords, EltTy.bits .f32 = 32 ∨ (Rect.block (s := S9x64) S9x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x64.size a ≤ S100000x64.size a
  hwx0_5 : ∀ i : grid0.Coords, EltTy.bits .f32 = 32 ∨ (Rect.block (s := S100000x64) S400x64.size (cc0_transform_5 i) (hinb0_5 i)).WholeWords (EltTy.packing .f32)

variable [Facts₀]

def dot_S12800x9_S9x64_S12800x64_1_0_0_1_n_n : DotDims S12800x9 S9x64 S12800x64 where
  lhsContracting := [1]
  rhsContracting := [0]
  lhsNonContracting := [0]
  rhsNonContracting := [1]
  lhsBatch := []
  rhsBatch := []
  wf := dot_S12800x9_S9x64_S12800x64_1_0_0_1_n_n_wf

abbrev win0_0 : Pipeline.Window sig grid0 :=
  Pipeline.Window.ofSpec (Memref.whole main_arg0) S400x32x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S9x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S400x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x32x4 : Shape := ⟨3, ![100000, 32, 4]⟩
abbrev S100000 : Shape := ⟨1, ![100000]⟩
abbrev S100000x3 : Shape := ⟨2, ![100000, 3]⟩
abbrev S9x64 : Shape := ⟨2, ![9, 64]⟩
abbrev S64 : Shape := ⟨1, ![64]⟩
abbrev S100000x32x3 : Shape := ⟨3, ![100000, 32, 3]⟩
abbrev S_ : Shape := ⟨0, ![]⟩
abbrev S100000x1x3 : Shape := ⟨3, ![100000, 1, 3]⟩
abbrev S100000x1x1 : Shape := ⟨3, ![100000, 1, 1]⟩
abbrev S100000x1 : Shape := ⟨2, ![100000, 1]⟩
abbrev S100000x32x1 : Shape := ⟨3, ![100000, 32, 1]⟩
abbrev S100000x32 : Shape := ⟨2, ![100000, 32]⟩
abbrev S100000x32x2 : Shape := ⟨3, ![100000, 32, 2]⟩
abbrev S100000x32x9 : Shape := ⟨3, ![100000, 32, 9]⟩
abbrev S32 : Shape := ⟨1, ![32]⟩
abbrev S1x32 : Shape := ⟨2, ![1, 32]⟩
abbrev S100000x32x64 : Shape := ⟨3, ![100000, 32, 64]⟩
abbrev S1x1x64 : Shape := ⟨3, ![1, 1, 64]⟩
abbrev S100000x64 : Shape := ⟨2, ![100000, 64]⟩

abbrev nBuf : Space → Nat
  | .hbm => 80
  | .vmem => 0
  | .smem => 0
  | _ => 0

abbrev bufTy : (tb : Table) → Fin (tcTables nBuf tb) → BufTy
  | .hbm, ⟨0, _⟩ => ⟨S100000x32x4, .f32⟩
  | .hbm, ⟨1, _⟩ => ⟨S100000, .i32⟩
  | .hbm, ⟨2, _⟩ => ⟨S100000x3, .i32⟩
  | .hbm, ⟨3, _⟩ => ⟨S9x64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S100000, .f32⟩
  | .hbm, ⟨9, _⟩ => ⟨S100000x32x3, .f32⟩
  | .hbm, ⟨10, _⟩ => ⟨S_, .f32⟩
  | .hbm, ⟨11, _⟩ => ⟨S100000x3, .f32⟩
  | .hbm, ⟨12, _⟩ => ⟨S100000x1x3, .f32⟩
  | .hbm, ⟨13, _⟩ => ⟨S100000x1x1, .f32⟩
  | .hbm, ⟨14, _⟩ => ⟨S100000x1x3, .f32⟩
  | .hbm, ⟨15, _⟩ => ⟨S100000x1x3, .f32⟩
  | .hbm, ⟨16, _⟩ => ⟨S100000x32x3, .f32⟩
  | .hbm, ⟨17, _⟩ => ⟨S100000x32x3, .f32⟩
  | .hbm, ⟨18, _⟩ => ⟨S100000x32x3, .f32⟩
  | .hbm, ⟨19, _⟩ => ⟨S100000x1, .i32⟩
  | .hbm, ⟨20, _⟩ => ⟨S100000, .i32⟩
  | .hbm, ⟨21, _⟩ => ⟨S100000, .f32⟩
  | .hbm, ⟨22, _⟩ => ⟨S100000x1, .f32⟩
  | .hbm, ⟨23, _⟩ => ⟨S_, .f32⟩
  | .hbm, ⟨24, _⟩ => ⟨S100000x1, .f32⟩
  | .hbm, ⟨25, _⟩ => ⟨S100000x1, .f32⟩
  | .hbm, ⟨26, _⟩ => ⟨S_, .f32⟩
  | .hbm, ⟨27, _⟩ => ⟨S100000x1, .f32⟩
  | .hbm, ⟨28, _⟩ => ⟨S100000x1, .f32⟩
  | .hbm, ⟨29, _⟩ => ⟨S100000x1, .i32⟩
  | .hbm, ⟨30, _⟩ => ⟨S100000, .i32⟩
  | .hbm, ⟨31, _⟩ => ⟨S100000, .f32⟩
  | .hbm, ⟨32, _⟩ => ⟨S100000x1, .f32⟩
  | .hbm, ⟨33, _⟩ => ⟨S_, .f32⟩
  | .hbm, ⟨34, _⟩ => ⟨S100000x1, .f32⟩
  | .hbm, ⟨35, _⟩ => ⟨S100000x1, .f32⟩
  | .hbm, ⟨36, _⟩ => ⟨S_, .f32⟩
  | .hbm, ⟨37, _⟩ => ⟨S100000x1, .f32⟩
  | .hbm, ⟨38, _⟩ => ⟨S100000x1, .f32⟩
  | .hbm, ⟨39, _⟩ => ⟨S100000x32x1, .f32⟩
  | .hbm, ⟨40, _⟩ => ⟨S100000x32, .f32⟩
  | .hbm, ⟨41, _⟩ => ⟨S100000x32, .f32⟩
  | .hbm, ⟨42, _⟩ => ⟨S100000x32, .f32⟩
  | .hbm, ⟨43, _⟩ => ⟨S100000x32x1, .f32⟩
  | .hbm, ⟨44, _⟩ => ⟨S100000x32, .f32⟩
  | .hbm, ⟨45, _⟩ => ⟨S100000x32, .f32⟩
  | .hbm, ⟨46, _⟩ => ⟨S100000x32, .f32⟩
  | .hbm, ⟨47, _⟩ => ⟨S100000x32x1, .f32⟩
  | .hbm, ⟨48, _⟩ => ⟨S100000x32x1, .f32⟩
  | .hbm, ⟨49, _⟩ => ⟨S100000x32x2, .f32⟩
  | .hbm, ⟨50, _⟩ => ⟨S100000x32x9, .f32⟩
  | .hbm, ⟨51, _⟩ => ⟨S100000x1, .i32⟩
  | .hbm, ⟨52, _⟩ => ⟨S32, .i32⟩
  | .hbm, ⟨53, _⟩ => ⟨S1x32, .i32⟩
  | .hbm, ⟨54, _⟩ => ⟨S100000x32, .i32⟩
  | .hbm, ⟨55, _⟩ => ⟨S100000x32, .i32⟩
  | .hbm, ⟨56, _⟩ => ⟨S100000x32, .i1⟩
  | .hbm, ⟨57, _⟩ => ⟨S100000x32x1, .i1⟩
  | .hbm, ⟨58, _⟩ => ⟨S100000x32x1, .f32⟩
  | .hbm, ⟨59, _⟩ => ⟨S100000x32x9, .f32⟩
  | .hbm, ⟨60, _⟩ => ⟨S100000x32x9, .f32⟩
  | .hbm, ⟨61, _⟩ => ⟨S100000x32x64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S64, .f32⟩
  | .hbm, ⟨66, _⟩ => ⟨S64, .f32⟩
  | .hbm, ⟨67, _⟩ => ⟨S1x1x64, .f32⟩
  | .hbm, ⟨68, _⟩ => ⟨S100000x32x64, .f32⟩
  | .hbm, ⟨69, _⟩ => ⟨S100000x32x64, .f32⟩
  | .hbm, ⟨70, _⟩ => ⟨S64, .f32⟩
  | .hbm, ⟨71, _⟩ => ⟨S64, .f32⟩
  | .hbm, ⟨72, _⟩ => ⟨S1x1x64, .f32⟩
  | .hbm, ⟨73, _⟩ => ⟨S100000x32x64, .f32⟩
  | .hbm, ⟨74, _⟩ => ⟨S100000x32x64, .f32⟩
  | .hbm, ⟨75, _⟩ => ⟨S_, .f32⟩
  | .hbm, ⟨76, _⟩ => ⟨S100000x32x64, .f32⟩
  | .hbm, ⟨77, _⟩ => ⟨S100000x32x64, .f32⟩
  | .hbm, ⟨78, _⟩ => ⟨S_, .f32⟩
  | .hbm, ⟨79, _⟩ => ⟨S100000x64, .f32⟩
  | _, _ => ⟨S100000x32x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_cst_4 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_call0_cst : Ref sig .tc := ⟨.hbm, 75, rfl⟩
abbrev main_call0_v0 : Ref sig .tc := ⟨.hbm, 76, rfl⟩
abbrev main_v61 : Ref sig .tc := ⟨.hbm, 77, rfl⟩
abbrev main_cst_5 : Ref sig .tc := ⟨.hbm, 78, rfl⟩
abbrev main_v62 : Ref sig .tc := ⟨.hbm, 79, rfl⟩

abbrev nD : Nat := 1
abbrev τ : Topo := Topo.v7x

variable {F : FTy → Type} [FloatOps F]

class Facts₀ : Prop where
  slices_S100000x32x4_S100000x32x3_0_0_0 : S100000x32x4.Slices ![0, 0, 0] S100000x32x3
  reducesTo_S100000x32x3_S100000x3_d1 : S100000x32x3.ReducesTo [1] S100000x3
  h_S_ : 0 < S_.numel
  bcast_S100000x3_S100000x1x3_0_2 : S100000x3.BroadcastsInDim S100000x1x3 (![0, 2] : Fin 2 → Fin S100000x1x3.rank)
  bcast_S100000_S100000x1x1_0 : S100000.BroadcastsInDim S100000x1x1 (![0] : Fin 1 → Fin S100000x1x1.rank)
  bcast_S100000x1x1_S100000x1x3_0_1_2 : S100000x1x1.BroadcastsInDim S100000x1x3 (![0, 1, 2] : Fin 3 → Fin S100000x1x3.rank)
  bcast_S100000x1x3_S100000x32x3_0_1_2 : S100000x1x3.BroadcastsInDim S100000x32x3 (![0, 1, 2] : Fin 3 → Fin S100000x32x3.rank)
  slices_S100000x3_S100000x1_0_0 : S100000x3.Slices ![0, 0] S100000x1
  shapeCasts_S100000x1_S100000 : S100000x1.ShapeCasts S100000
  bcast_S100000_S100000x1_0 : S100000.BroadcastsInDim S100000x1 (![0] : Fin 1 → Fin S100000x1.rank)
  bcast_S_S100000x1 : S_.BroadcastsInDim S100000x1 (![] : Fin 0 → Fin S100000x1.rank)
  slices_S100000x3_S100000x1_0_1 : S100000x3.Slices ![0, 1] S100000x1
  slices_S100000x32x4_S100000x32x1_0_0_0 : S100000x32x4.Slices ![0, 0, 0] S100000x32x1
  shapeCasts_S100000x32x1_S100000x32 : S100000x32x1.ShapeCasts S100000x32
  bcast_S100000x1_S100000x32_0_1 : S100000x1.BroadcastsInDim S100000x32 (![0, 1] : Fin 2 → Fin S100000x32.rank)
  slices_S100000x32x4_S100000x32x1_0_0_1 : S100000x32x4.Slices ![0, 0, 1] S100000x32x1
  bcast_S100000x32_S100000x32x1_0_1 : S100000x32.BroadcastsInDim S100000x32x1 (![0, 1] : Fin 2 → Fin S100000x32x1.rank)
  concatenates_S100000x32x1_S100000x32x1_S100000x32x2_d2 : Shape.Concatenates [S100000x32x1, S100000x32x1] S100000x32x2 2
  concatenates_S100000x32x4_S100000x32x3_S100000x32x2_S100000x32x9_d2 : Shape.Concatenates [S100000x32x4, S100000x32x3, S100000x32x2] S100000x32x9 2
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S100000x32x1_S100000x32x9_0_1_2 : S100000x32x1.BroadcastsInDim S100000x32x9 (![0, 1, 2] : Fin 3 → Fin S100000x32x9.rank)
  bcast_S_S64 : S_.BroadcastsInDim S64 (![] : Fin 0 → Fin S64.rank)
  bcast_S64_S1x1x64_2 : S64.BroadcastsInDim S1x1x64 (![2] : Fin 1 → Fin S1x1x64.rank)
  bcast_S1x1x64_S100000x32x64_0_1_2 : S1x1x64.BroadcastsInDim S100000x32x64 (![0, 1, 2] : Fin 3 → Fin S100000x32x64.rank)
  bcast_S_S100000x32x64 : S_.BroadcastsInDim S100000x32x64 (![] : Fin 0 → Fin S100000x32x64.rank)
  reducesTo_S100000x32x64_S100000x64_d1 : S100000x32x64.ReducesTo [1] S100000x64
  dot_S100000x32x9_S9x64_S100000x32x64_2_0_01_1_n_n_wf : DotDims.WF S100000x32x9 S9x64 S100000x32x64 [2] [0] [0, 1] [1] [] []

variable [Facts₀]

def dot_S100000x32x9_S9x64_S100000x32x64_2_0_01_1_n_n : DotDims S100000x32x9 S9x64 S100000x32x64 where
  lhsContracting := [2]
  rhsContracting := [0]
  lhsNonContracting := [0, 1]
  rhsNonContracting := [1]
  lhsBatch := []
  rhsBatch := []
  wf := dot_S100000x32x9_S9x64_S100000x32x64_2_0_01_1_n_n_wf

class Facts : Prop extends Facts₀ where

variable [Facts]
-- ==== Proof.Spec.lean ====
/-
  The pillar feature net on the extended reals, one output entry at a time.

  A pillar `n` holds up to 32 points of 4 numbers each (x, y, z, r), a point count and the integer cell it sits in.
  Each point is widened to nine features: its four numbers; x, y, z less the pillar's mean of them (the sum over all
  32 rows divided by the point count); x and y less the cell's centre. Rows at or past the point count are zeroed
  by a 0/1 mask. The nine features go through a linear map to 64 channels, an affine map per channel (the batch
  normalisation with stored statistics: scale `γ / √(σ² + ε)`, shift `β − μ · scale`), a clamp at zero, and the
  maximum over the 32 rows.

  Two spellings of that value are set side by side here. One applies the scale after the linear map and divides the
  sums by the point count as it is (`preR`, `outR`); the other folds the scale into the linear map's coefficients and
  divides by the point count raised to at least one (`preK`, `outK`).
-/
import Idealize.ShloMosaic.Lib.ValueIdx
import Idealize.ShloMosaic.PureOps.Ideal.Laws

noncomputable section

namespace Cert.Pfn

open Idealize.ShloMosaic Idealize.ShloMosaic.ValueIdx

/-- The number of points of a pillar, as a number. -/
def cnt (np : BitVec 32) : EReal := FloatOps.sitofp (F := Ideal) .f32 np

/-- Row `p` counts when the pillar holds more than `p` points: one then, zero otherwise. -/
def msk (np : BitVec 32) (p : Fin 32) : EReal :=
  FloatOps.uitofp (F := Ideal) .f32 (IntOp.cmpi .sgt np (BitVec.ofNat 32 p.val))

/-- A cell's centre along one axis: the cell index times the cell width (the float nearest 0.2) plus the first
    centre's position `off`. -/
def centre (c : BitVec 32) (off : EReal) : EReal :=
  FloatOps.sitofp (F := Ideal) .f32 c * Ideal.ofBits .f32 0x3E4CCCCD#32 + off

/-- The nine features of row `p` of a pillar whose rows are `v`, whose cell is `(c0, c1)`, the sums of x, y, z
    divided by `q`: features 0–3 the row, 4–6 the row's x, y, z less the mean, 7 and 8 its x and y less the centre. -/
def feat (q : EReal) (v : Fin 32 → Fin 4 → EReal) (c0 c1 : BitVec 32) (p : Fin 32) (k : Fin 9) : EReal :=
  if h : k.val < 4 then v p ⟨k.val, h⟩
  else if h7 : k.val < 7 then
    v p ⟨k.val - 4, by omega⟩ - Ideal.div (∑ p' : Fin 32, v p' ⟨k.val - 4, by omega⟩) q
  else if k.val = 7 then v p 0 - centre c0 (Ideal.ofBits .f32 0x3DCCCCCD#32)
  else v p 1 - centre c1 (Ideal.ofBits .f32 0xC1CC0000#32)

/-- A channel's scale: `γ / √(σ² + ε)`, `ε` the float nearest 0.001. -/
def scale (g var : EReal) : EReal := Ideal.div g (Ideal.sqrt (var + Ideal.ofBits .f32 0x3A83126F#32))

/-- A channel's shift: `β − μ · scale`. -/
def shift (g b mu var : EReal) : EReal := b - mu * scale g var

/-- The masked features through a linear map with coefficients `w`, plus `bias`. -/
def preB (f : Fin 9 → EReal) (mk : EReal) (w : Fin 9 → EReal) (bias : EReal) : EReal :=
  (∑ k : Fin 9, (f k * mk) * w k) + bias

/-- The scale applied after the linear map. -/
def preR (f : Fin 9 → EReal) (mk : EReal) (w : Fin 9 → EReal) (g b mu var : EReal) : EReal :=
  (∑ k : Fin 9, (f k * mk) * w k) * scale g var + shift g b mu var

/-- The scale folded into the coefficients. -/
def preK (f : Fin 9 → EReal) (mk : EReal) (w : Fin 9 → EReal) (g b mu var : EReal) : EReal :=
  preB f mk (fun k => w k * scale g var) (shift g b mu var)

/-- The clamp at zero and the maximum over the 32 rows, taken from `-∞`. -/
def pooled (x : Fin 32 → EReal) : EReal :=
  (Finset.univ : Finset (Fin 32)).fold max (Ideal.ofBits .f32 0xFF800000#32)
    (fun p => max (x p) (Ideal.ofBits .f32 0x00000000#32))

abbrev SV : Shape := ⟨3, ![100000, 32, 4]⟩
abbrev SN : Shape := ⟨1, ![100000]⟩
abbrev SC : Shape := ⟨2, ![100000, 3]⟩
abbrev SW : Shape := ⟨2, ![9, 64]⟩
abbrev SD : Shape := ⟨1, ![64]⟩
abbrev SO : Shape := ⟨2, ![100000, 64]⟩

/-- Pillar `n`'s rows. -/
def pts (V : SV.Idx → EReal) (n : Fin 100000) : Fin 32 → Fin 4 → EReal := fun p c => V (ix3 n p c)

/-- Column `d` of the linear map. -/
def col (W : SW.Idx → EReal) (d : Fin 64) : Fin 9 → EReal := fun k => W (ix2 k d)

/-- The result with the scale applied after the linear map and the sums divided by the point count. -/
def outR (V : SV.Idx → EReal) (NP : SN.Idx → BitVec 32) (C : SC.Idx → BitVec 32) (W : SW.Idx → EReal)
    (g b mu var : SD.Idx → EReal) : SO.Idx → EReal := fun i =>
  pooled fun p =>
    preR (feat (cnt (NP (ix1 (i 0)))) (pts V (i 0)) (C (ix2 (i 0) 0)) (C (ix2 (i 0) 1)) p) (msk (NP (ix1 (i 0))) p)
      (col W (i 1)) (g (ix1 (i 1))) (b (ix1 (i 1))) (mu (ix1 (i 1))) (var (ix1 (i 1)))

/-- The result with the scale folded into the coefficients and the sums divided by the point count raised to at
    least one. -/
def outK (V : SV.Idx → EReal) (NP : SN.Idx → BitVec 32) (C : SC.Idx → BitVec 32) (W : SW.Idx → EReal)
    (g b mu var : SD.Idx → EReal) : SO.Idx → EReal := fun i =>
  pooled fun p =>
    preK (feat (max (cnt (NP (ix1 (i 0)))) (Ideal.ofBits .f32 0x3F800000#32)) (pts V (i 0)) (C (ix2 (i 0) 0))
        (C (ix2 (i 0) 1)) p) (msk (NP (ix1 (i 0))) p)
      (col W (i 1)) (g (ix1 (i 1))) (b (ix1 (i 1))) (mu (ix1 (i 1))) (var (ix1 (i 1)))

end Cert.Pfn

end
-- ==== Proof.LibKeepdims.lean ====
/-
  A vector kept as a column: the two layout operations a reduction with kept dimensions prints, read at an index
  given by coordinates.

  A row reduction of an `[a, b]` matrix leaves a vector of length `a`; to set it against the matrix again it is cast
  to the column `[a, 1]` and that column is broadcast along the rows to `[a, b]`. At `(i, j)` the result is the
  vector's entry `i`, whatever `j`.
-/
import Idealize.ShloMosaic.Lib.Pipeline.Value
import Idealize.ShloMosaic.Lib.ValueIdx

namespace Cert.LibKeepdims

open Idealize.ShloMosaic Idealize.ShloMosaic.ValueIdx

variable {α : Type}

/-- A vector of length `a` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two together: a vector cast to a column and broadcast along the rows reads, at `(i, j)`, the vector at `i`. -/
theorem column_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (i : Fin a) (j : Fin b) :
    broadcastTo ⟨2, ![a, b]⟩ (shapeCast ⟨2, ![a, 1]⟩ x h) h' (ix2 i j) = x (ix1 i) :=
  (broadcastTo_a1_ab_apply _ h' i j).trans (shapeCast_a_a1_apply x h i 0)

end Cert.LibKeepdims
-- ==== Proof.HostPrefix.lean ====
/-
  What the region finds in the three arrays computed before it: the point counts as a column, the coefficients with
  each channel's scale folded in (`W · γ / √(σ² + ε)`, the scale spread down the nine rows), and each channel's shift
  `β − μ · γ / √(σ² + ε)`.
-/
import proofs.«121473_j40235253629487_2_alg».proof.Proof.Gen.KernelIdeal.Frame
import proofs.«121473_j40235253629487_2_alg».proof.Proof.Spec
import proofs.«121473_j40235253629487_2_alg».proof.Proof.LibKeepdims
import Idealize.ShloMosaic.Lib.StableHlo.Run
import Idealize.ShloMosaic.Lib.Pipeline.Value
import Idealize.ShloMosaic.Lib.ValueIdx
import Idealize.ShloMosaic.PureOps.Ideal.Laws

noncomputable section

namespace Cert.Pfn.Ker

open Cert.KernelIdeal Cert.KernelIdeal.Gen
open Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The eight argument arrays as the launch memory holds them, as plain functions of an index. -/
abbrev A0 (c : Dev nD) : S100000x32x4.Idx → EReal := m ((c : Thread nD τ).loc main_arg0)
abbrev A1 (c : Dev nD) : S100000.Idx → BitVec 32 := m ((c : Thread nD τ).loc main_arg1)
abbrev A2 (c : Dev nD) : S100000x3.Idx → BitVec 32 := m ((c : Thread nD τ).loc main_arg2)
abbrev A3 (c : Dev nD) : S9x64.Idx → EReal := m ((c : Thread nD τ).loc main_arg3)
abbrev A4 (c : Dev nD) : S64.Idx → EReal := m ((c : Thread nD τ).loc main_arg4)
abbrev A5 (c : Dev nD) : S64.Idx → EReal := m ((c : Thread nD τ).loc main_arg5)
abbrev A6 (c : Dev nD) : S64.Idx → EReal := m ((c : Thread nD τ).loc main_arg6)
abbrev A7 (c : Dev nD) : S64.Idx → EReal := m ((c : Thread nD τ).loc main_arg7)

/-- The point counts, one per pillar, as the column the region reads. -/
theorem V_counts (c : Dev nD) :
    (V m c main_v9 : S100000x1.Idx → BitVec 32)
      = shapeCast S100000x1 (m ((c : Thread nD τ).loc main_arg1) : S100000.Idx → BitVec 32) shapeCasts_S100000_S100000x1 := by
  dsimp only [V, hostOps0]
  after_results
  rfl

/-- Pillar `n`'s point count, read off the column. -/
theorem counts_apply (c : Dev nD) (n : Fin 100000) :
    (V m c main_v9 : S100000x1.Idx → BitVec 32) (ix2 n (0 : Fin 1))
      = A1 m c (ix1 n) := by
  rw [V_counts]
  exact Cert.LibKeepdims.shapeCast_a_a1_apply _ shapeCasts_S100000_S100000x1 n 0

/-- The channels' scales as a vector. -/
def scales (c : Dev nD) : FVec Ideal S64 .f32 :=
  Host.divf (F := Ideal) (m ((c : Thread nD τ).loc main_arg4))
    (Host.sqrt (F := Ideal) (addf (m ((c : Thread nD τ).loc main_arg7))
      (broadcastInDim S64 ![] bcast_S_S64 (constant (F := Ideal) S_ .f32 0x3A83126F#32))))

/-- Channel `d`'s scale is the specification's. -/
theorem scales_apply (c : Dev nD) (d : Fin 64) :
    scales m c (ix1 d) = Cert.Pfn.scale (A4 m c (ix1 d)) (A7 m c (ix1 d)) := rfl

/-- The coefficients the region reads: each column times its channel's scale. -/
theorem V_coeffs (c : Dev nD) :
    (V m c main_v6 : S9x64.Idx → EReal)
      = mulf (m ((c : Thread nD τ).loc main_arg3))
          (broadcastInDim S9x64 ![0, 1] bcast_S1x64_S9x64_0_1 (broadcastInDim S1x64 ![1] bcast_S64_S1x64_1 (scales m c))) := by
  dsimp only [V, hostOps0]
  after_results
  rfl

theorem coeffs_apply (c : Dev nD) (k : Fin 9) (d : Fin 64) :
    (V m c main_v6 : S9x64.Idx → EReal) (ix2 k d)
      = A3 m c (ix2 k d) * Cert.Pfn.scale (A4 m c (ix1 d)) (A7 m c (ix1 d)) := by
  rw [V_coeffs, ← scales_apply]
  show A3 m c (ix2 k d) * broadcastInDim (s := S1x64) S9x64 ![0, 1] bcast_S1x64_S9x64_0_1
      (broadcastInDim (s := S64) S1x64 ![1] bcast_S64_S1x64_1 (scales m c)) (ix2 k d) = _
  rw [broadcastInDim_apply ![0, 1] bcast_S1x64_S9x64_0_1 _ (ix2 k d) (ix2 (0 : Fin 1) d)
      (fun a => by match a with | ⟨0, _⟩ => rfl | ⟨1, _⟩ => rfl),
    broadcastInDim_apply ![1] bcast_S64_S1x64_1 _ (ix2 (0 : Fin 1) d) (ix1 d)
      (fun a => by match a with | ⟨0, _⟩ => rfl)]

/-- The shifts the region reads. -/
theorem V_shifts (c : Dev nD) :
    (V m c main_v8 : S64.Idx → EReal)
      = subf (m ((c : Thread nD τ).loc main_arg5)) (mulf (m ((c : Thread nD τ).loc main_arg6)) (scales m c)) := by
  dsimp only [V, hostOps0]
  after_results
  rfl

theorem shifts_apply (c : Dev nD) (d : Fin 64) :
    (V m c main_v8 : S64.Idx → EReal) (ix1 d)
      = Cert.Pfn.shift (A4 m c (ix1 d)) (A5 m c (ix1 d)) (A6 m c (ix1 d)) (A7 m c (ix1 d)) := by
  rw [V_shifts]
  rfl

end Cert.Pfn.Ker

end
-- ==== Proof.LibRank3.lean ====
/-
  Rank-3 arrays with a unit axis, read at an index given by coordinates.

  Mean-centring a stack of matrices with kept dimensions, stacking columns into a last axis, and spreading a
  per-row number over a row all print as the same few layout operations: a cast that adds or drops a unit axis
  (the row-major position does not change), and a broadcast along a unit axis (the coordinate on that axis is
  forgotten). Each lemma reads one of them at `(i, j, k)`.
-/
import Idealize.ShloMosaic.Lib.Pipeline.Value
import Idealize.ShloMosaic.Lib.ValueIdx

namespace Cert.LibRank3

open Idealize.ShloMosaic Idealize.ShloMosaic.ValueIdx

variable {α : Type}

/-- `[a, b, 1]` broadcast along the last axis to `[a, b, c]`: at `(i, j, k)` the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- `[a, 1, c]` broadcast along the middle axis to `[a, b, c]`: at `(i, j, k)` the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- `[a, 1, 1]` broadcast along the last axis to `[a, 1, c]`: at `(i, 0, k)` the operand at `(i, 0, 0)`. -/
theorem broadcastTo_a11_a1c_apply {a c : ℕ} (v : (⟨3, ![a, 1, 1]⟩ : Shape).Idx → α)
    (h : (⟨3, ![a, 1, 1]⟩ : Shape).Broadcasts ⟨3, ![a, 1, c]⟩) (i : Fin a) (u : Fin 1) (k : Fin c) :
    broadcastTo ⟨3, ![a, 1, c]⟩ v h (ix3 i u k) = v (ix3 i (0 : Fin 1) (0 : Fin 1)) := by
  refine broadcastTo_apply v h (ix3 i u k) (ix3 i (0 : Fin 1) (0 : Fin 1)) fun ax => ?_
  match ax with
  | ⟨0, _⟩ =>
    show i.val = if a = 1 then 0 else i.val
    split
    · have := i.isLt; omega
    · rfl
  | ⟨1, _⟩ => rfl
  | ⟨2, _⟩ => rfl

/-- `[a, b]` cast to `[a, b, 1]`: at `(i, j, 0)` the operand at `(i, j)`. -/
theorem shapeCast_ab_ab1_apply {a b : ℕ} (v : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ v h (ix3 i j u) = v (ix2 i j) :=
  shapeCast_apply v h _ _ (by
    have hu : u.val = 0 := by omega
    rw [Shape.rowMajor_val_two, Shape.rowMajor_val_three]
    show i.val * b + j.val = (i.val * b + j.val) * 1 + u.val
    omega)

/-- `[a, b, 1]` cast to `[a, b]`: at `(i, j)` the operand at `(i, j, 0)`. -/
theorem shapeCast_ab1_ab_apply {a b : ℕ} (v : (⟨3, ![a, b, 1]⟩ : Shape).Idx → α)
    (h : (⟨3, ![a, b, 1]⟩ : Shape).ShapeCasts ⟨2, ![a, b]⟩) (i : Fin a) (j : Fin b) :
    shapeCast ⟨2, ![a, b]⟩ v h (ix2 i j) = v (ix3 i j (0 : Fin 1)) :=
  shapeCast_apply v h _ _ (by
    rw [Shape.rowMajor_val_two, Shape.rowMajor_val_three]
    show (i.val * b + j.val) * 1 + 0 = i.val * b + j.val
    omega)

/-- `[a, c]` cast to `[a, 1, c]`: at `(i, 0, k)` the operand at `(i, k)`. -/
theorem shapeCast_ac_a1c_apply {a c : ℕ} (v : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ v h (ix3 i u k) = v (ix2 i k) :=
  shapeCast_apply v h _ _ (by
    have hu : u.val = 0 := by omega
    rw [Shape.rowMajor_val_two, Shape.rowMajor_val_three]
    show i.val * c + k.val = (i.val * 1 + u.val) * c + k.val
    rw [hu, Nat.mul_one, Nat.add_zero])

/-- `[a, 1]` cast to `[a, 1, 1]`: at `(i, 0, 0)` the operand at `(i, 0)`. -/
theorem shapeCast_a1_a11_apply {a : ℕ} (v : (⟨2, ![a, 1]⟩ : Shape).Idx → α)
    (h : (⟨2, ![a, 1]⟩ : Shape).ShapeCasts ⟨3, ![a, 1, 1]⟩) (i : Fin a) (u u' : Fin 1) :
    shapeCast ⟨3, ![a, 1, 1]⟩ v h (ix3 i u u') = v (ix2 i (0 : Fin 1)) :=
  shapeCast_apply v h _ _ (by
    have hu : u.val = 0 := by omega
    have hu' : u'.val = 0 := by omega
    rw [Shape.rowMajor_val_two, Shape.rowMajor_val_three]
    show i.val * 1 + 0 = (i.val * 1 + u.val) * 1 + u'.val
    omega)

end Cert.LibRank3
-- ==== Proof.KFeat.lean ====
/-
  The first half of the body, read at one entry: the nine features of row `p` of pillar `r` of a block of 400
  pillars, and the 0/1 mask of that row.

  Features 0–3 are the row itself. Features 4–6 are the row's x, y, z less the pillar's mean: the sum of the 32
  rows divided by the point count raised to at least one, a per-pillar number kept as a `[400, 1, 3]` array and
  spread over the rows. Features 7 and 8 are the row's x and y less the cell's centre, a per-pillar number spread
  over the rows; the two columns are stacked into a last axis. The mask compares the point count, spread over the
  rows, with the row's number.
-/
import proofs.«121473_j40235253629487_2_alg».proof.Proof.Gen.KernelIdeal.Skeleton
import proofs.«121473_j40235253629487_2_alg».proof.Proof.Spec
import proofs.«121473_j40235253629487_2_alg».proof.Proof.LibKeepdims
import proofs.«121473_j40235253629487_2_alg».proof.Proof.LibRank3
import Idealize.ShloMosaic.Lib.Pipeline.Value
import Idealize.ShloMosaic.Lib.ValueIdx
import Idealize.ShloMosaic.Lib.KernelVsHost
import Idealize.ShloMosaic.PureOps.Ideal.Laws

noncomputable section

namespace Cert.Pfn.Ker

open Cert.KernelIdeal Cert.KernelIdeal.Gen
open Idealize.ShloMosaic Idealize.ShloMosaic.ValueIdx
open Cert.LibRank3 Cert.LibKeepdims

/-- The first three numbers of a row. -/
theorem xyz_apply (x0 : FVec Ideal S400x32x4 .f32) (r : Fin 400) (p : Fin 32) (j : Fin 3) :
    extractStridedSlice S400x32x3 ![0, 0, 0] x0 slices_S400x32x4_o0_0_0_S400x32x3 (ix3 r p j)
      = x0 (ix3 r p ⟨j.val, by omega⟩) :=
  extractStridedSlice_apply ![0, 0, 0] x0 slices_S400x32x4_o0_0_0_S400x32x3 (ix3 r p j) (ix3 r p ⟨j.val, by omega⟩)
    (fun a => by
      match a with
      | ⟨0, _⟩ => show r.val = 0 + r.val; omega
      | ⟨1, _⟩ => show p.val = 0 + p.val; omega
      | ⟨2, _⟩ => show j.val = 0 + j.val; omega)

/-- Number `c` (0 or 1) of a row, cut out as a column. -/
theorem column0_apply (x0 : FVec Ideal S400x32x4 .f32) (r : Fin 400) (p : Fin 32) :
    extractStridedSlice S400x32x1 ![0, 0, 0] x0 slices_S400x32x4_o0_0_0_S400x32x1 (ix3 r p (0 : Fin 1))
      = x0 (ix3 r p (0 : Fin 4)) :=
  extractStridedSlice_apply ![0, 0, 0] x0 slices_S400x32x4_o0_0_0_S400x32x1 (ix3 r p (0 : Fin 1)) (ix3 r p (0 : Fin 4))
    (fun a => by
      match a with
      | ⟨0, _⟩ => show r.val = 0 + r.val; omega
      | ⟨1, _⟩ => show p.val = 0 + p.val; omega
      | ⟨2, _⟩ => rfl)

theorem column1_apply (x0 : FVec Ideal S400x32x4 .f32) (r : Fin 400) (p : Fin 32) :
    extractStridedSlice S400x32x1 ![0, 0, 1] x0 slices_S400x32x4_o0_0_1_S400x32x1 (ix3 r p (0 : Fin 1))
      = x0 (ix3 r p (1 : Fin 4)) :=
  extractStridedSlice_apply ![0, 0, 1] x0 slices_S400x32x4_o0_0_1_S400x32x1 (ix3 r p (0 : Fin 1)) (ix3 r p (1 : Fin 4))
    (fun a => by
      match a with
      | ⟨0, _⟩ => show r.val = 0 + r.val; omega
      | ⟨1, _⟩ => show p.val = 0 + p.val; omega
      | ⟨2, _⟩ => rfl)

/-- Cell coordinate `c` (0 or 1) of a pillar, cut out as a column. -/
theorem cell0_apply (x2 : IVec S400x3 32) (r : Fin 400) :
    extractStridedSlice S400x1 ![0, 0] x2 slices_S400x3_o0_0_S400x1 (ix2 r (0 : Fin 1)) = x2 (ix2 r (0 : Fin 3)) :=
  extractStridedSlice_apply ![0, 0] x2 slices_S400x3_o0_0_S400x1 (ix2 r (0 : Fin 1)) (ix2 r (0 : Fin 3))
    (fun a => by
      match a with
      | ⟨0, _⟩ => show r.val = 0 + r.val; omega
      | ⟨1, _⟩ => rfl)

theorem cell1_apply (x2 : IVec S400x3 32) (r : Fin 400) :
    extractStridedSlice S400x1 ![0, 1] x2 slices_S400x3_o0_1_S400x1 (ix2 r (0 : Fin 1)) = x2 (ix2 r (1 : Fin 3)) :=
  extractStridedSlice_apply ![0, 1] x2 slices_S400x3_o0_1_S400x1 (ix2 r (0 : Fin 1)) (ix2 r (1 : Fin 3))
    (fun a => by
      match a with
      | ⟨0, _⟩ => show r.val = 0 + r.val; omega
      | ⟨1, _⟩ => rfl)

/-- The sum over a pillar's 32 rows. -/
theorem sums_apply (y : FVec Ideal S400x32x3 .f32) (r : Fin 400) (j : Fin 3) :
    multiReduction .add [1] S400x3 y 0x00000000#32 reduces_S400x32x3_S400x3 (.inl rfl) rfl (ix2 r j)
      = ∑ p : Fin 32, y (ix3 r p j) := by
  refine (Ideal.multiReduction_add_single y _ reduces_S400x32x3_S400x3 _ _ (ix2 r j)).trans ?_
  show (∑ p : Fin 32, y (reduces_S400x32x3_S400x3.lift (ix2 r j) p)) = _
  refine Finset.sum_congr rfl fun p _ => congrArg y ?_
  exact funext fun a => Fin.ext (by match a with | ⟨0, _⟩ => rfl | ⟨1, _⟩ => rfl | ⟨2, _⟩ => rfl)

/-- The pillar's mean of x, y, z, spread over its rows: the sum `s` over the divisor `q`. -/
theorem mean_apply (s : FVec Ideal S400x3 .f32) (q : FVec Ideal S400x1 .f32) (r : Fin 400) (p : Fin 32) (j : Fin 3) :
    broadcastTo S400x32x3 (divf (shapeCast S400x1x3 s shapeCasts_S400x3_S400x1x3)
        (broadcastTo S400x1x3 (shapeCast S400x1x1 q shapeCasts_S400x1_S400x1x1) broadcasts_S400x1x1_S400x1x3))
      broadcasts_S400x1x3_S400x32x3 (ix3 r p j)
      = Ideal.div (s (ix2 r j)) (q (ix2 r (0 : Fin 1))) := by
  refine (broadcastTo_a1c_abc_apply _ broadcasts_S400x1x3_S400x32x3 r p j).trans ?_
  show Ideal.div (shapeCast S400x1x3 s shapeCasts_S400x3_S400x1x3 (ix3 r (0 : Fin 1) j))
      (broadcastTo S400x1x3 _ broadcasts_S400x1x1_S400x1x3 (ix3 r (0 : Fin 1) j)) = _
  rw [shapeCast_ac_a1c_apply, broadcastTo_a11_a1c_apply, shapeCast_a1_a11_apply]

/-- A per-pillar number spread over the rows and taken off a column of the rows. -/
theorem offset_apply (col : FVec Ideal S400x32x1 .f32) (ctr : FVec Ideal S400x1 .f32) (r : Fin 400) (p : Fin 32) (u : Fin 1) :
    shapeCast S400x32x1 (subf (shapeCast S400x32 col shapeCasts_S400x32x1_S400x32)
        (broadcastTo S400x32 ctr broadcasts_S400x1_S400x32)) shapeCasts_S400x32_S400x32x1 (ix3 r p u)
      = col (ix3 r p (0 : Fin 1)) - ctr (ix2 r (0 : Fin 1)) := by
  refine (shapeCast_ab_ab1_apply _ shapeCasts_S400x32_S400x32x1 r p u).trans ?_
  show shapeCast S400x32 col shapeCasts_S400x32x1_S400x32 (ix2 r p) - broadcastTo S400x32 ctr broadcasts_S400x1_S400x32 (ix2 r p) = _
  rw [shapeCast_ab1_ab_apply, broadcastTo_a1_ab_apply]

/-- The mask, spread over the nine features: one when the pillar's point count exceeds the row's number. -/
theorem pay4_apply (x1 : IVec S400x1 32) (r : Fin 400) (p : Fin 32) (k : Fin 9) :
    k0_pay4 (F := Ideal) x1 (ix3 r p k) = Cert.Pfn.msk (x1 (ix2 r (0 : Fin 1))) p := by
  unfold k0_pay4 k0_pay2
  refine (broadcastTo_ab1_abc_apply _ broadcasts_S400x32x1_S400x32x9 r p k).trans ?_
  refine (shapeCast_ab_ab1_apply _ shapeCasts_S400x32_S400x32x1 r p 0).trans ?_
  show FloatOps.sitofp (F := Ideal) .f32 ((IntOp.cmpi .sgt
      (broadcastTo S400x32 (shapeCast S400x1 x1 shapeCasts_S400x1_S400x1) broadcasts_S400x1_S400x32 (ix2 r p))
      (iota .tc S400x32 32 [1] iota_S400x32_d1_w32 (ix2 r p))).setWidth 32) = _
  rw [broadcastTo_a1_ab_apply, shapeCast_self, iota_single_apply]
  show ((((IntOp.cmpi .sgt (x1 (ix2 r (0 : Fin 1))) (BitVec.ofNat 32 p.val)).setWidth 32).toInt : ℝ) : EReal)
      = (((IntOp.cmpi .sgt (x1 (ix2 r (0 : Fin 1))) (BitVec.ofNat 32 p.val)).toNat : ℝ) : EReal)
  rw [toInt_setWidth_bit]
  norm_cast

end Cert.Pfn.Ker

end
-- ==== Proof.LibDotSingle.lean ====
/-
  A matrix product with ONE contracted axis, read at an index of the result, over the extended reals.

  Whatever the ranks of the operands and whichever axes are contracted, once the contracted axis has extent `K` and the
  operand indices at the `k`-th contraction coordinate are known (`li k`, `ri k`), the product into a zero accumulator
  is the finite sum `∑ k, x (li k) * w (ri k)`: the accumulator contributes `0`, and the one-axis contraction index is
  its coordinate.
-/
import Idealize.ShloMosaic.Lib.ValueIdx
import Idealize.ShloMosaic.PureOps.Ideal.Laws

namespace Cert.LibDotSingle

open Idealize.ShloMosaic Idealize.ShloMosaic.ValueIdx

/-- A `tpu.matmul` into the zero accumulator whose dimension numbers contract one axis of extent `K`, at the result
    index `j`, is the sum over `k : Fin K` of the left operand at `li k` times the right operand at `ri k`, where
    `li`, `ri` name the operand indices the dimension numbers give at contraction coordinate `k`. -/
theorem matmul_zero_apply {sl sr so : Shape} {φ₁ φ₂ : FTy} (d : DotDims sl sr so) (K : ℕ)
    (hr : d.contr.rank = 1) (hs : d.contr.size ⟨0, by omega⟩ = K) (prec : Option ContractPrecision)
    (x : FVec Ideal sl φ₁) (w : FVec Ideal sr φ₂) (j : so.Idx) (li : Fin K → sl.Idx) (ri : Fin K → sr.Idx)
    (hl : ∀ k, d.lhsIdx j ((contrEquiv1 d K hr hs).symm k) = li k)
    (hri : ∀ k, d.rhsIdx j ((contrEquiv1 d K hr hs).symm k) = ri k) :
    matmul d prec x w (constant (F := Ideal) so .f32 0x00000000#32) j = ∑ k : Fin K, x (li k) * w (ri k) := by
  refine (Ideal.matmul_constant_zero_apply d prec x w j).trans ?_
  refine (Equiv.sum_comp (contrEquiv1 d K hr hs).symm _).symm.trans ?_
  exact Finset.sum_congr rfl fun k _ => by rw [hl k, hri k]

end Cert.LibDotSingle
-- ==== Proof.KPool.lean ====
/-
  The second half of the body, read at one entry: from the nine features of each of a pillar's 32 rows and the 0/1
  mask, the masked features go through the 9 × 64 linear map (one contraction over the nine features), the
  channel's bias is added, the result is clamped at zero, and the maximum over the pillar's 32 rows is taken.

  The body computes this on a block of 400 pillars flattened to 12800 rows: row `32 r + p` of the flat matrix is row
  `p` of pillar `r`, so reading the flat product back at `(r, p, d)` is reading it at flat row `32 r + p`.
-/
import proofs.«121473_j40235253629487_2_alg».proof.Proof.Gen.KernelIdeal.Skeleton
import proofs.«121473_j40235253629487_2_alg».proof.Proof.LibDotSingle
import Idealize.ShloMosaic.Lib.Pipeline.Value
import Idealize.ShloMosaic.Lib.ValueIdx
import Idealize.ShloMosaic.Lib.ValueLayout
import Idealize.ShloMosaic.PureOps.Ideal.Laws

noncomputable section

namespace Cert.Pfn.Ker

open Cert.KernelIdeal Cert.KernelIdeal.Gen
open Idealize.ShloMosaic Idealize.ShloMosaic.ValueIdx

/-- Flat row `32 r + p` lies among the 12800. -/
theorem flat_lt (r : Fin 400) (p : Fin 32) : 32 * r.val + p.val < 12800 := by
  have := r.isLt; have := p.isLt; omega

/-- The flat row of pillar `r`'s row `p`. -/
abbrev flat (r : Fin 400) (p : Fin 32) : Fin 12800 := ⟨32 * r.val + p.val, flat_lt r p⟩

/-- The masked features laid flat: flat row `32 r + p`, feature `k`, is pillar `r`, row `p`, feature `k`. -/
theorem flatten_apply (x : FVec Ideal S400x32x9 .f32) (r : Fin 400) (p : Fin 32) (k : Fin 9) :
    shapeCast S12800x9 x shapeCasts_S400x32x9_S12800x9 (ix2 (flat r p) k) = x (ix3 r p k) :=
  shapeCast_apply x shapeCasts_S400x32x9_S12800x9 _ _ (by
    rw [Shape.rowMajor_val_three, Shape.rowMajor_val_two]
    show (r.val * 32 + p.val) * 9 + k.val = (32 * r.val + p.val) * 9 + k.val
    omega)

/-- The flat result folded back: pillar `r`, row `p`, channel `d`, is flat row `32 r + p`, channel `d`. -/
theorem unflatten_apply (y : FVec Ideal S12800x64 .f32) (r : Fin 400) (p : Fin 32) (d : Fin 64) :
    shapeCast S400x32x64 y shapeCasts_S12800x64_S400x32x64 (ix3 r p d) = y (ix2 (flat r p) d) :=
  shapeCast_apply y shapeCasts_S12800x64_S400x32x64 _ _ (by
    rw [Shape.rowMajor_val_three, Shape.rowMajor_val_two]
    show (32 * r.val + p.val) * 64 + d.val = (r.val * 32 + p.val) * 64 + d.val
    omega)

/-- The flat product at `(j, d)`: the sum over the nine features of the left factor at `(j, k)` times the
    coefficient at `(k, d)`. -/
theorem product_apply (x : FVec Ideal S12800x9 .f32) (w : FVec Ideal S9x64 .f32) (j : Fin 12800) (d : Fin 64) :
    matmul dot_S12800x9_S9x64_S12800x64_1_0_0_1_n_n none x w (constant (F := Ideal) S12800x64 .f32 0x00000000#32) (ix2 j d)
      = ∑ k : Fin 9, x (ix2 j k) * w (ix2 k d) :=
  Cert.LibDotSingle.matmul_zero_apply dot_S12800x9_S9x64_S12800x64_1_0_0_1_n_n 9 rfl rfl none x w (ix2 j d)
    (fun k => ix2 j k) (fun k => ix2 k d)
    (fun k => funext fun a => Fin.ext (by match a with | ⟨0, _⟩ => rfl | ⟨1, _⟩ => rfl))
    (fun k => funext fun a => Fin.ext (by match a with | ⟨0, _⟩ => rfl | ⟨1, _⟩ => rfl))

/-- The bias vector set along every flat row: at `(j, d)` it is the bias of channel `d`. -/
theorem bias_apply (b : FVec Ideal S64 .f32) (j : Fin 12800) (d : Fin 64) :
    broadcastTo S12800x64 (shapeCast S1x64 (shapeCast S64 b shapeCasts_S64_S64) shapeCasts_S64_S1x64) broadcasts_S1x64_S12800x64 (ix2 j d)
      = b (ix1 d) := by
  refine (broadcastTo_1b_ab_apply _ broadcasts_S1x64_S12800x64 j d).trans ?_
  refine (shapeCast_a_1a_apply _ shapeCasts_S64_S1x64 0 d).trans ?_
  rw [shapeCast_self]

/-- Folding the flat result back and reading pillar `r`'s row `p` inserts `p` on the rows' axis. -/
theorem lift_rows (r : Fin 400) (d : Fin 64) (p : Fin 32) :
    reduces_S400x32x64_S400x64.lift (ix2 r d) p = ix3 r p d :=
  funext fun a => Fin.ext (by match a with | ⟨0, _⟩ => rfl | ⟨1, _⟩ => rfl | ⟨2, _⟩ => rfl)

/-- So a folded-back array read through that insertion is read at `(r, p, d)`. -/
theorem read_lift (y : FVec Ideal S400x32x64 .f32) (r : Fin 400) (d : Fin 64) (p : Fin 32) :
    (y ∘ reduces_S400x32x64_S400x64.lift (ix2 r d)) p = y (ix3 r p d) :=
  congrArg y (lift_rows r d p)

/-- The second half of the body at entry `(r, d)`: the maximum over the 32 rows, taken from `-∞`, of the clamp at zero
    of the contraction of the masked features with column `d` plus the bias of channel `d`. -/
theorem pay1_apply (f mk : FVec Ideal S400x32x9 .f32) (w : FVec Ideal S9x64 .f32) (bias : FVec Ideal S64 .f32)
    (r : Fin 400) (d : Fin 64) :
    k0_pay1 (F := Ideal) f mk w bias (ix2 r d)
      = (Finset.univ : Finset (Fin 32)).fold max (Ideal.ofBits .f32 0xFF800000#32) (fun p =>
          max ((∑ k : Fin 9, (f (ix3 r p k) * mk (ix3 r p k)) * w (ix2 k d)) + bias (ix1 d))
            (Ideal.ofBits .f32 0x00000000#32)) := by
  unfold k0_pay1
  refine (Ideal.multiReduction_maximumf_single _ _ reduces_S400x32x64_S400x64 _ _ (ix2 r d)).trans ?_
  refine congrArg (fun g : Fin 32 → EReal =>
    (Finset.univ : Finset (Fin 32)).fold max (Ideal.ofBits .f32 0xFF800000#32) g) (funext fun (p : Fin 32) => ?_)
  refine (read_lift _ r d p).trans ?_
  refine (unflatten_apply _ r p d).trans ?_
  show max (matmul dot_S12800x9_S9x64_S12800x64_1_0_0_1_n_n none _ _ _ (ix2 (flat r p) d)
      + broadcastTo S12800x64 _ broadcasts_S1x64_S12800x64 (ix2 (flat r p) d)) (Ideal.ofBits .f32 0x00000000#32) = _
  rw [product_apply, bias_apply, shapeCast_self]
  refine congrArg (fun s : EReal => max (s + bias (ix1 d)) (Ideal.ofBits .f32 0x00000000#32)) ?_
  refine Finset.sum_congr rfl fun k _ => ?_
  rw [flatten_apply]
  rfl

end Cert.Pfn.Ker

end
-- ==== Proof.LibConcat3.lean ====
/-
  Three arrays laid side by side along one axis, read at an index.

  The index's coordinate on the joined axis falls in exactly one piece's span; the entry is that piece's entry at the
  same coordinates off the axis and, on it, the coordinate less the extents of the pieces before.
-/
import Idealize.ShloMosaic.Lib.Pipeline.Value

namespace Cert.LibConcat3

open Idealize.ShloMosaic

variable {α : Type}

/-- The coordinate falls in the first piece. -/
theorem piece0 {t s₁ s₂ s₃ : Shape} (a : Fin t.rank) (x₁ : s₁.Idx → α) (x₂ : s₂.Idx → α) (x₃ : s₃.Idx → α)
    (h : Shape.Concatenates [s₁, s₂, s₃] t a) (j : t.Idx) (hr : s₁.rank = t.rank) (i : s₁.Idx)
    (hi : ∀ b : Fin s₁.rank, b.cast hr ≠ a → (i b).val = (j (b.cast hr)).val)
    (ha : (i (a.cast hr.symm)).val = (j a).val) :
    concatenate t a [⟨s₁, x₁⟩, ⟨s₂, x₂⟩, ⟨s₃, x₃⟩] h j = x₁ i :=
  concatenate_apply_piece a [⟨s₁, x₁⟩, ⟨s₂, x₂⟩, ⟨s₃, x₃⟩] h j 0 (by show (0 : ℕ) < 3; omega) s₁ x₁ rfl hr 0 rfl i hi
    (by rw [Nat.zero_add]; exact ha)

/-- The coordinate falls in the second piece: past the first piece's extent. -/
theorem piece1 {t s₁ s₂ s₃ : Shape} (a : Fin t.rank) (x₁ : s₁.Idx → α) (x₂ : s₂.Idx → α) (x₃ : s₃.Idx → α)
    (h : Shape.Concatenates [s₁, s₂, s₃] t a) (j : t.Idx) (hr₁ : s₁.rank = t.rank) (hr : s₂.rank = t.rank) (i : s₂.Idx)
    (hi : ∀ b : Fin s₂.rank, b.cast hr ≠ a → (i b).val = (j (b.cast hr)).val)
    (ha : s₁.size (a.cast hr₁.symm) + (i (a.cast hr.symm)).val = (j a).val) :
    concatenate t a [⟨s₁, x₁⟩, ⟨s₂, x₂⟩, ⟨s₃, x₃⟩] h j = x₂ i :=
  concatenate_apply_piece a [⟨s₁, x₁⟩, ⟨s₂, x₂⟩, ⟨s₃, x₃⟩] h j 1 (by show (1 : ℕ) < 3; omega) s₂ x₂ rfl hr (s₁.size (a.cast hr₁.symm))
    (by simp only [List.take, List.map, List.sum_cons, List.sum_nil, dif_pos hr₁, Nat.add_zero]) i hi ha

/-- The coordinate falls in the third piece: past the first two pieces' extents. -/
theorem piece2 {t s₁ s₂ s₃ : Shape} (a : Fin t.rank) (x₁ : s₁.Idx → α) (x₂ : s₂.Idx → α) (x₃ : s₃.Idx → α)
    (h : Shape.Concatenates [s₁, s₂, s₃] t a) (j : t.Idx) (hr₁ : s₁.rank = t.rank) (hr₂ : s₂.rank = t.rank)
    (hr : s₃.rank = t.rank) (i : s₃.Idx)
    (hi : ∀ b : Fin s₃.rank, b.cast hr ≠ a → (i b).val = (j (b.cast hr)).val)
    (ha : s₁.size (a.cast hr₁.symm) + s₂.size (a.cast hr₂.symm) + (i (a.cast hr.symm)).val = (j a).val) :
    concatenate t a [⟨s₁, x₁⟩, ⟨s₂, x₂⟩, ⟨s₃, x₃⟩] h j = x₃ i :=
  concatenate_apply_piece a [⟨s₁, x₁⟩, ⟨s₂, x₂⟩, ⟨s₃, x₃⟩] h j 2 (by show (2 : ℕ) < 3; omega) s₃ x₃ rfl hr
    (s₁.size (a.cast hr₁.symm) + s₂.size (a.cast hr₂.symm))
    (by simp only [List.take, List.map, List.sum_cons, List.sum_nil, dif_pos hr₁, dif_pos hr₂, Nat.add_zero]) i hi ha

end Cert.LibConcat3
-- ==== Proof.KRow.lean ====
/-
  The body at one entry. The nine features of a row are three pieces laid side by side on the last axis — the
  row (4 numbers), its centred x, y, z (3), its two centre offsets (2, themselves two columns side by side) — so
  feature `k` is read from the piece whose span holds `k`. Put through the second half of the body this gives the
  specification's value with the divisor `max (count, 1)`, the coefficients and bias as the block holds them.
-/
import proofs.«121473_j40235253629487_2_alg».proof.Proof.KFeat
import proofs.«121473_j40235253629487_2_alg».proof.Proof.KPool
import proofs.«121473_j40235253629487_2_alg».proof.Proof.LibConcat3

noncomputable section

namespace Cert.Pfn.Ker

open Cert.KernelIdeal Cert.KernelIdeal.Gen
open Idealize.ShloMosaic Idealize.ShloMosaic.ValueIdx
open Cert.LibRank3 Cert.LibKeepdims

/-- A cell's centre along axis 0 as the body computes it, per pillar. -/
theorem centre0_apply (x2 : IVec S400x3 32) (r : Fin 400) :
    addf (mulf (sitofp .f32 (extractStridedSlice S400x1 ![0, 0] x2 slices_S400x3_o0_0_S400x1))
        (broadcast S400x1 (Scalar.ofBits (F := Ideal) .f32 0x3E4CCCCD#32)))
      (broadcast S400x1 (Scalar.ofBits (F := Ideal) .f32 0x3DCCCCCD#32)) (ix2 r (0 : Fin 1))
      = Cert.Pfn.centre (x2 (ix2 r (0 : Fin 3))) (Ideal.ofBits .f32 0x3DCCCCCD#32) := by
  show FloatOps.sitofp (F := Ideal) .f32 (extractStridedSlice S400x1 ![0, 0] x2 slices_S400x3_o0_0_S400x1 (ix2 r (0 : Fin 1)))
      * Ideal.ofBits .f32 0x3E4CCCCD#32 + Ideal.ofBits .f32 0x3DCCCCCD#32 = _
  rw [cell0_apply]
  rfl

/-- A cell's centre along axis 1. -/
theorem centre1_apply (x2 : IVec S400x3 32) (r : Fin 400) :
    addf (mulf (sitofp .f32 (extractStridedSlice S400x1 ![0, 1] x2 slices_S400x3_o0_1_S400x1))
        (broadcast S400x1 (Scalar.ofBits (F := Ideal) .f32 0x3E4CCCCD#32)))
      (broadcast S400x1 (Scalar.ofBits (F := Ideal) .f32 0xC1CC0000#32)) (ix2 r (0 : Fin 1))
      = Cert.Pfn.centre (x2 (ix2 r (1 : Fin 3))) (Ideal.ofBits .f32 0xC1CC0000#32) := by
  show FloatOps.sitofp (F := Ideal) .f32 (extractStridedSlice S400x1 ![0, 1] x2 slices_S400x3_o0_1_S400x1 (ix2 r (0 : Fin 1)))
      * Ideal.ofBits .f32 0x3E4CCCCD#32 + Ideal.ofBits .f32 0xC1CC0000#32 = _
  rw [cell1_apply]
  rfl

/-- The divisor of the mean: the point count raised to at least one. -/
theorem divisor_apply (x1 : IVec S400x1 32) (r : Fin 400) :
    maximumf (sitofp .f32 (shapeCast S400x1 x1 shapeCasts_S400x1_S400x1))
      (broadcast S400x1 (Scalar.ofBits (F := Ideal) .f32 0x3F800000#32)) (ix2 r (0 : Fin 1))
      = max (Cert.Pfn.cnt (x1 (ix2 r (0 : Fin 1)))) (Ideal.ofBits .f32 0x3F800000#32) := by
  rw [shapeCast_self]
  rfl

/-- The nine features of row `p` of pillar `r` of a block. -/
theorem pay3_apply (x0 : FVec Ideal S400x32x4 .f32) (x1 : IVec S400x1 32) (x2 : IVec S400x3 32)
    (r : Fin 400) (p : Fin 32) (k : Fin 9) :
    k0_pay3 (F := Ideal) x0 x1 x2 (ix3 r p k)
      = Cert.Pfn.feat (max (Cert.Pfn.cnt (x1 (ix2 r (0 : Fin 1)))) (Ideal.ofBits .f32 0x3F800000#32))
          (fun p c => x0 (ix3 r p c)) (x2 (ix2 r (0 : Fin 3))) (x2 (ix2 r (1 : Fin 3))) p k := by
  unfold k0_pay3 k0_pay2 Cert.Pfn.feat
  by_cases h4 : k.val < 4
  · rw [dif_pos h4]
    refine (Cert.LibConcat3.piece0 2 _ _ _ concatenates_S400x32x4_S400x32x3_S400x32x2_S400x32x9_d2 (ix3 r p k) rfl
      (ix3 r p ⟨k.val, h4⟩) (fun b hb => ?_) rfl).trans rfl
    match b, hb with
    | ⟨0, _⟩, _ => rfl
    | ⟨1, _⟩, _ => rfl
    | ⟨2, _⟩, hb => exact absurd rfl hb
  · rw [dif_neg h4]
    by_cases h7 : k.val < 7
    · rw [dif_pos h7]
      refine (Cert.LibConcat3.piece1 2 _ _ _ concatenates_S400x32x4_S400x32x3_S400x32x2_S400x32x9_d2 (ix3 r p k) rfl rfl
        (ix3 r p (⟨k.val - 4, by omega⟩ : Fin 3)) (fun b hb => ?_) ?_).trans ?_
      · match b, hb with
        | ⟨0, _⟩, _ => rfl
        | ⟨1, _⟩, _ => rfl
        | ⟨2, _⟩, hb => exact absurd rfl hb
      · show 4 + (k.val - 4) = k.val
        omega
      · show extractStridedSlice S400x32x3 ![0, 0, 0] x0 slices_S400x32x4_o0_0_0_S400x32x3 (ix3 r p (⟨k.val - 4, by omega⟩ : Fin 3))
            - broadcastTo S400x32x3 _ broadcasts_S400x1x3_S400x32x3 (ix3 r p (⟨k.val - 4, by omega⟩ : Fin 3)) = _
        rw [xyz_apply, mean_apply, sums_apply, divisor_apply]
        simp only [xyz_apply]
    · rw [dif_neg h7]
      have hk9 := k.isLt
      by_cases h77 : k.val = 7
      · rw [if_pos h77]
        refine (Cert.LibConcat3.piece2 2 _ _ _ concatenates_S400x32x4_S400x32x3_S400x32x2_S400x32x9_d2 (ix3 r p k) rfl rfl rfl
          (ix3 r p (0 : Fin 2)) (fun b hb => ?_) ?_).trans ?_
        · match b, hb with
          | ⟨0, _⟩, _ => rfl
          | ⟨1, _⟩, _ => rfl
          | ⟨2, _⟩, hb => exact absurd rfl hb
        · show 4 + 3 + 0 = k.val
          omega
        · refine (concatenate_pair_apply_left 2 _ _ concatenates_S400x32x1_S400x32x1_S400x32x2_d2 (ix3 r p (0 : Fin 2)) rfl
            (ix3 r p (0 : Fin 1)) (fun b => ?_)).trans ?_
          · match b with
            | ⟨0, _⟩ => rfl
            | ⟨1, _⟩ => rfl
            | ⟨2, _⟩ => rfl
          · rw [offset_apply, column0_apply, centre0_apply]
      · rw [if_neg h77]
        refine (Cert.LibConcat3.piece2 2 _ _ _ concatenates_S400x32x4_S400x32x3_S400x32x2_S400x32x9_d2 (ix3 r p k) rfl rfl rfl
          (ix3 r p (1 : Fin 2)) (fun b hb => ?_) ?_).trans ?_
        · match b, hb with
          | ⟨0, _⟩, _ => rfl
          | ⟨1, _⟩, _ => rfl
          | ⟨2, _⟩, hb => exact absurd rfl hb
        · show 4 + 3 + 1 = k.val
          omega
        · refine (concatenate_pair_apply_right 2 _ _ concatenates_S400x32x1_S400x32x1_S400x32x2_d2 (ix3 r p (1 : Fin 2)) rfl rfl
            (ix3 r p (0 : Fin 1)) (fun b hb => ?_) rfl).trans ?_
          · match b, hb with
            | ⟨0, _⟩, _ => rfl
            | ⟨1, _⟩, _ => rfl
            | ⟨2, _⟩, hb => exact absurd rfl hb
          · rw [offset_apply, column1_apply, centre1_apply]

/-- THE BODY AT ONE ENTRY: from a block of 400 pillars (rows `x0`, point counts `x1`, cells `x2`), the coefficients
    `x3` and the bias `x4`, entry `(r, d)` of the result block. -/
theorem body_apply (x0 : FVec Ideal S400x32x4 .f32) (x1 : IVec S400x1 32) (x2 : IVec S400x3 32)
    (x3 : FVec Ideal S9x64 .f32) (x4 : FVec Ideal S64 .f32) (r : Fin 400) (d : Fin 64) :
    k0_pay1 (F := Ideal) (k0_pay3 x0 x1 x2) (k0_pay4 x1) x3 x4 (ix2 r d)
      = Cert.Pfn.pooled fun p =>
          Cert.Pfn.preB
            (Cert.Pfn.feat (max (Cert.Pfn.cnt (x1 (ix2 r (0 : Fin 1)))) (Ideal.ofBits .f32 0x3F800000#32))
              (fun p c => x0 (ix3 r p c)) (x2 (ix2 r (0 : Fin 3))) (x2 (ix2 r (1 : Fin 3))) p)
            (Cert.Pfn.msk (x1 (ix2 r (0 : Fin 1))) p) (fun k => x3 (ix2 k d)) (x4 (ix1 d)) := by
  rw [pay1_apply]
  unfold Cert.Pfn.pooled Cert.Pfn.preB
  simp only [pay3_apply, pay4_apply]

end Cert.Pfn.Ker

end
-- ==== Proof.Blocks.lean ====
/-
  From blocks to the array. Grid point `t` (of 250) handles pillars `400 t … 400 t + 399`: its blocks of the rows, the
  point counts and the cells are those pillars' rows of the arrays, the coefficients and shifts are read whole at
  every point, and the block it writes back is rows `400 t …` of the result. So what point `t` writes back is block `t`
  of ONE function of the argument arrays (the specification's `outK`), and since the 250 blocks cover all 100000
  pillars the result array ends holding that function.
-/
import proofs.«121473_j40235253629487_2_alg».proof.Proof.Gen.KernelIdeal.Value
import proofs.«121473_j40235253629487_2_alg».proof.Proof.HostPrefix
import proofs.«121473_j40235253629487_2_alg».proof.Proof.KRow
import Idealize.ShloMosaic.Lib.Pipeline.Value
import Idealize.ShloMosaic.Lib.Tactic

noncomputable section

namespace Cert.Pfn.Ker

open Cert.KernelIdeal Cert.KernelIdeal.Gen Cert.KernelIdeal.Value
open Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the grid: the three per-pillar windows and the result window move with the point
    along the pillars' axis and stay at zero elsewhere; the coefficients and shifts stay at block zero. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

theorem pt_lt (t : Fin cfg0.N) : t.val < 250 := by
  have h : t.val < grid0.N := t.isLt
  rw [N_0] at h
  exact h

/-- The pillar that row `r` of point `t`'s blocks is. -/
def pillar (t : Fin cfg0.N) (r : Fin 400) : Fin 100000 :=
  ⟨400 * t.val + r.val, by have := pt_lt t; have := r.isLt; omega⟩

/-- Point `t`'s block of the rows is pillars `400 t …` of the rows' array. -/
theorem blk0_apply (c : Dev nD) (t : Fin cfg0.N) (r : Fin 400) (p : Fin 32) (k : Fin 4) :
    (iblk m c 0 t : FVec Ideal S400x32x4 .f32) (ix3 r p k) = A0 m c (ix3 (pillar t r) p k) := by
  obtain ⟨e0, e1, e2, -⟩ := idx_facts t
  show V m c main_arg0 (((cfg0.win 0).blk t).view.emb (ix3 r p k)) = _
  rw [V_main_arg0]
  refine congrArg (A0 m c) (funext fun a => Fin.ext ?_)
  match a with
  | ⟨0, _⟩ => show win0_0.index t (0 : Fin 3) * 400 + 1 * r.val = 400 * t.val + r.val; rw [e0]; omega
  | ⟨1, _⟩ => show win0_0.index t (1 : Fin 3) * 32 + 1 * p.val = p.val; rw [e1]; omega
  | ⟨2, _⟩ => show win0_0.index t (2 : Fin 3) * 4 + 1 * k.val = k.val; rw [e2]; omega

/-- Point `t`'s block of the point counts. -/
theorem blk1_apply (c : Dev nD) (t : Fin cfg0.N) (r : Fin 400) :
    (iblk m c 1 t : IVec S400x1 32) (ix2 r (0 : Fin 1)) = A1 m c (ix1 (pillar t r)) := by
  obtain ⟨-, -, -, e0, e1, -⟩ := idx_facts t
  show V m c main_v9 (((cfg0.win 1).blk t).view.emb (ix2 r (0 : Fin 1))) = _
  refine Eq.trans (congrArg (V m c main_v9) (funext fun a => Fin.ext ?_)) (counts_apply m c (pillar t r))
  match a with
  | ⟨0, _⟩ => show win0_1.index t (0 : Fin 2) * 400 + 1 * r.val = 400 * t.val + r.val; rw [e0]; omega
  | ⟨1, _⟩ => show win0_1.index t (1 : Fin 2) * 1 + 1 * 0 = 0; rw [e1]

/-- Point `t`'s block of the cells. -/
theorem blk2_apply (c : Dev nD) (t : Fin cfg0.N) (r : Fin 400) (e : Fin 3) :
    (iblk m c 2 t : IVec S400x3 32) (ix2 r e) = A2 m c (ix2 (pillar t r) e) := by
  obtain ⟨-, -, -, -, -, e0, e1, -⟩ := idx_facts t
  show V m c main_arg2 (((cfg0.win 2).blk t).view.emb (ix2 r e)) = _
  rw [V_main_arg2]
  refine congrArg (A2 m c) (funext fun a => Fin.ext ?_)
  match a with
  | ⟨0, _⟩ => show win0_2.index t (0 : Fin 2) * 400 + 1 * r.val = 400 * t.val + r.val; rw [e0]; omega
  | ⟨1, _⟩ => show win0_2.index t (1 : Fin 2) * 3 + 1 * e.val = e.val; rw [e1]; omega

/-- Every point reads the whole coefficient array: each column times its channel's scale. -/
theorem blk3_apply (c : Dev nD) (t : Fin cfg0.N) (k : Fin 9) (d : Fin 64) :
    (iblk m c 3 t : FVec Ideal S9x64 .f32) (ix2 k d)
      = A3 m c (ix2 k d) * Cert.Pfn.scale (A4 m c (ix1 d)) (A7 m c (ix1 d)) := by
  obtain ⟨-, -, -, -, -, -, -, e0, e1, -⟩ := idx_facts t
  show V m c main_v6 (((cfg0.win 3).blk t).view.emb (ix2 k d)) = _
  refine Eq.trans (congrArg (V m c main_v6) (funext fun a => Fin.ext ?_)) (coeffs_apply m c k d)
  match a with
  | ⟨0, _⟩ => show win0_3.index t (0 : Fin 2) * 9 + 1 * k.val = k.val; rw [e0]; omega
  | ⟨1, _⟩ => show win0_3.index t (1 : Fin 2) * 64 + 1 * d.val = d.val; rw [e1]; omega

/-- Every point reads the whole vector of shifts. -/
theorem blk4_apply (c : Dev nD) (t : Fin cfg0.N) (d : Fin 64) :
    (iblk m c 4 t : FVec Ideal S64 .f32) (ix1 d)
      = Cert.Pfn.shift (A4 m c (ix1 d)) (A5 m c (ix1 d)) (A6 m c (ix1 d)) (A7 m c (ix1 d)) := by
  obtain ⟨-, -, -, -, -, -, -, -, -, e0, -⟩ := idx_facts t
  show V m c main_v8 (((cfg0.win 4).blk t).view.emb (ix1 d)) = _
  refine Eq.trans (congrArg (V m c main_v8) (funext fun a => Fin.ext ?_)) (shifts_apply m c d)
  match a with
  | ⟨0, _⟩ => show win0_4.index t (0 : Fin 1) * 64 + 1 * d.val = d.val; rw [e0]; omega

/-- The result array as one function of the argument arrays. -/
abbrev result (c : Dev nD) : S100000x64.Idx → EReal :=
  Cert.Pfn.outK (A0 m c) (A1 m c) (A2 m c) (A3 m c) (A4 m c) (A5 m c) (A6 m c) (A7 m c)

/-- Entry `(r, d)` of the block point `t` writes back sits at `(400 t + r, d)` of the result array. -/
theorem emb5_apply (t : Fin cfg0.N) (r : Fin 400) (d : Fin 64) :
    ((cfg0.win 5).blk t).view.emb (ix2 r d) = ix2 (pillar t r) d := by
  obtain ⟨-, -, -, -, -, -, -, -, -, -, e0, e1⟩ := idx_facts t
  refine funext fun a => Fin.ext ?_
  match a with
  | ⟨0, _⟩ => show win0_5.index t (0 : Fin 2) * 400 + 1 * r.val = 400 * t.val + r.val; rw [e0]; omega
  | ⟨1, _⟩ => show win0_5.index t (1 : Fin 2) * 64 + 1 * d.val = d.val; rw [e1]; omega

/-- WHAT POINT `t` WRITES BACK is block `t` of `result`. -/
theorem flushed_eq (c : Dev nD) (t : Fin cfg0.N) :
    (dats m 0 c).flushed 5 t = ((cfg0.win 5).blk t).view.read (Elt Ideal) (result m c) := by
  rw [flushed5]
  unfold out0_5
  rw [View.canon_unit_zero hz2]
  simp only [View.ld_unit_zero (S := S400x32x4) hz3, View.ld_unit_zero (S := S400x1) hz2,
    View.ld_unit_zero (S := S400x3) hz2, View.ld_unit_zero (S := S9x64) hz2, View.ld_unit_zero (S := S64) hz1]
  funext y
  obtain ⟨r, d, rfl⟩ : ∃ (r : Fin 400) (d : Fin 64), y = ix2 r d := ⟨y 0, y 1, eq_ix2 (n0 := 400) (n1 := 64) y⟩
  show k0_pay1 (F := Ideal) (k0_pay3 (iblk m c 0 t) (iblk m c 1 t) (iblk m c 2 t)) (k0_pay4 (iblk m c 1 t))
      (iblk m c 3 t) (iblk m c 4 t) (ix2 r d) = result m c (((cfg0.win 5).blk t).view.emb (ix2 r d))
  rw [emb5_apply]
  refine (body_apply (iblk m c 0 t) (iblk m c 1 t) (iblk m c 2 t) (iblk m c 3 t) (iblk m c 4 t) r d).trans ?_
  simp only [blk0_apply, blk1_apply, blk2_apply, blk3_apply, blk4_apply]
  rfl

/-- An index of the result array is in point `t`'s block iff each coordinate is in the block's range. -/
theorem mem_blk5 (t : Fin cfg0.N) (i : S100000x64.Idx) :
    i ∈ ((cfg0.win 5).blk t).view.set ↔ ∀ a : Fin 2, win0_5.index t a * S400x64.size a ≤ (i a).val
      ∧ (i a).val < win0_5.index t a * S400x64.size a + S400x64.size a := by
  show i ∈ ((View.whole main_v10).slice (win0_5.rect t)).set ↔ _
  rw [View.set_slice_whole, Rect.mem_set_unit]
  exact Iff.rfl

/-- Every pillar lies in some point's block: pillar `n` in point `n / 400`'s. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  have hN : grid0.N = 250 := N_0
  have ht : (i 0).val / 400 < cfg0.N := by show (i 0).val / 400 < grid0.N; rw [hN]; omega
  obtain ⟨-, -, -, -, -, -, -, -, -, -, e0, e1⟩ := idx_facts ⟨(i 0).val / 400, ht⟩
  refine ⟨⟨(i 0).val / 400, ht⟩, flush0_5 _, ?_⟩
  rw [mem_blk5]
  intro a
  match a with
  | ⟨0, _⟩ =>
    show win0_5.index ⟨(i 0).val / 400, ht⟩ (0 : Fin 2) * 400 ≤ (i 0).val
      ∧ (i 0).val < win0_5.index ⟨(i 0).val / 400, ht⟩ (0 : Fin 2) * 400 + 400
    rw [e0]
    show (i 0).val / 400 * 400 ≤ (i 0).val ∧ (i 0).val < (i 0).val / 400 * 400 + 400
    omega
  | ⟨1, _⟩ =>
    show win0_5.index ⟨(i 0).val / 400, ht⟩ (1 : Fin 2) * 64 ≤ (i 1).val
      ∧ (i 1).val < win0_5.index ⟨(i 0).val / 400, ht⟩ (1 : Fin 2) * 64 + 64
    rw [e1]
    omega

/-- So the result array ends holding `result`. -/
theorem final (c : Dev nD) : (dats m 0 c).arrAt 5 cfg0.N = result m c :=
  (dats m 0 c).arrAt_eq_of_cover 5 (result m c) (fun t _ => flushed_eq m c t) covered

/-- The run, read: the result array at `result`, the eight arguments unchanged. -/
theorem run : θ_run defs (onTc (τ := τ) (main (F := Ideal))) ⟨m, fun _ => 0, ρ⟩ fun r => ∀ c : Dev nD,
      r.2.mem ((c : Thread nD τ).loc main_v10) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.Pfn.Ker

end
-- ==== Proof.RefSide.lean ====
/-
  The reference's program read at an output entry.

  The reference computes, for pillar `n`, row `p` and channel `d`: the nine features of the row (the row's four
  numbers; x, y, z less the pillar's sum of them over all 32 rows divided by the point count; x and y less the
  cell's centre), each times the row's 0/1 mask, through the linear map; the result times the channel's scale plus
  the channel's shift; the clamp at zero; and then the maximum over the 32 rows taken from -∞. Every stage below is
  stated at an index given by its coordinates, bottom-up, and the last theorem says the whole program is `outR`.
-/
import proofs.«121473_j40235253629487_2_alg».proof.Proof.Gen.ReferenceIdeal.Read
import proofs.«121473_j40235253629487_2_alg».proof.Proof.Spec
import Idealize.ShloMosaic.Lib.Pipeline.Value
import Idealize.ShloMosaic.Lib.ValueIdx
import Idealize.ShloMosaic.PureOps.Ideal.Laws
import Idealize.ShloMosaic.PureOps.Reduce

noncomputable section

namespace Cert.Pfn.Ref

open Cert.ReferenceIdeal Cert.ReferenceIdeal.Gen Cert.ReferenceIdeal.Read Idealize.ShloMosaic Idealize.ShloMosaic.ValueIdx

variable (x0 : (⟨S100000x32x4, .f32⟩ : BufTy).Contents (Elt Ideal)) (x1 : (⟨S100000, .i32⟩ : BufTy).Contents (Elt Ideal))
  (x2 : (⟨S100000x3, .i32⟩ : BufTy).Contents (Elt Ideal)) (x3 : (⟨S9x64, .f32⟩ : BufTy).Contents (Elt Ideal))
  (x4 x5 x6 x7 : (⟨S64, .f32⟩ : BufTy).Contents (Elt Ideal))

/-- One of the first three columns of a row, as a column of the four. -/
abbrev up (c : Fin 3) : Fin 4 := ⟨c.val, Nat.lt_succ_of_lt c.isLt⟩

/-! ## The pillar's sums, its mean and the centred features -/

/-- The sum over the 32 rows of column `c` (x, y or z) of pillar `n`: the sum's initial value is zero. -/
theorem sum_apply (n : Fin 100000) (c : Fin 3) :
    val_main_v2 (F := Ideal) x0 (ix2 n c) = ∑ p : Fin 32, x0 (ix3 n p (up c)) := by
  rw [val_main_v2_apply, val_main_cst_apply, Ideal.ofBits_def, Ideal.ofBits_zero_f32, zero_add]
  refine Finset.sum_congr rfl fun p _ => ?_
  rw [val_main_v1_apply]
  exact congrArg x0 (funext fun a => by match a with | ⟨0, _⟩ => rfl | ⟨1, _⟩ => rfl | ⟨2, _⟩ => rfl)

/-- The mean: that sum divided by the point count as a number. -/
theorem mean_apply (n : Fin 100000) (u : Fin 1) (c : Fin 3) :
    val_main_v6 (F := Ideal) x0 x1 (ix3 n u c)
      = Ideal.div (∑ p : Fin 32, x0 (ix3 n p (up c))) (cnt (x1 (ix1 n))) := by
  rw [val_main_v6_apply, val_main_v3_apply, val_main_v5_apply, val_main_v4_apply, val_main_v0_apply, Ideal.hostDivf_def]
  have e3 : idx_main_v3 (ix3 n u c) = ix2 n c :=
    funext fun a => by match a with | ⟨0, _⟩ => rfl | ⟨1, _⟩ => rfl
  have e4 : idx_main_v4 (idx_main_v5 (ix3 n u c)) = ix1 n :=
    funext fun a => by match a with | ⟨0, _⟩ => rfl
  rw [e3, e4, sum_apply]
  rfl

/-- A centred feature: the row's x, y or z less the mean. -/
theorem centred_apply (n : Fin 100000) (p : Fin 32) (c : Fin 3) :
    val_main_v9 (F := Ideal) x0 x1 (ix3 n p c)
      = x0 (ix3 n p (up c)) - Ideal.div (∑ p' : Fin 32, x0 (ix3 n p' (up c))) (cnt (x1 (ix1 n))) := by
  rw [val_main_v9_apply, val_main_v7_apply, val_main_v8_apply, Ideal.subf_def]
  have e7 : idx_main_v7 (ix3 n p c) = ix3 n p (up c) :=
    funext fun a => by match a with | ⟨0, _⟩ => rfl | ⟨1, _⟩ => rfl | ⟨2, _⟩ => rfl
  have e8 : idx_main_v8 (ix3 n p c) = ix3 n (0 : Fin 1) c :=
    funext fun a => by match a with | ⟨0, _⟩ => rfl | ⟨1, _⟩ => rfl | ⟨2, _⟩ => rfl
  rw [e7, e8, mean_apply]

/-! ## The cell's centres and the offsets from them -/

/-- The centre along the first axis: the cell's first index times the cell width plus the first centre. -/
theorem centre0_apply (n : Fin 100000) (u : Fin 1) :
    val_main_v17 (F := Ideal) x2 (ix2 n u) = centre (x2 (ix2 n (0 : Fin 3))) (Ideal.ofBits .f32 0x3DCCCCCD#32) := by
  rw [val_main_v17_apply, val_main_v15_apply, val_main_v13_apply, val_main_v12_apply, val_main_v11_apply,
    val_main_v10_apply, val_main_v14_apply, val_main_cst_0_apply, val_main_v16_apply, val_main_cst_1_apply,
    Ideal.addf_def, Ideal.mulf_def, Ideal.ofBits_def, Ideal.ofBits_def]
  have e : idx_main_v10 (idx_main_v11 (idx_main_v13 (ix2 n u))) = ix2 n (0 : Fin 3) :=
    funext fun a => by
      match a with
      | ⟨0, _⟩ => exact Fin.ext (Nat.div_one _)
      | ⟨1, _⟩ => rfl
  rw [e]
  rfl

/-- The centre along the second axis. -/
theorem centre1_apply (n : Fin 100000) (u : Fin 1) :
    val_main_v25 (F := Ideal) x2 (ix2 n u) = centre (x2 (ix2 n (1 : Fin 3))) (Ideal.ofBits .f32 0xC1CC0000#32) := by
  rw [val_main_v25_apply, val_main_v23_apply, val_main_v21_apply, val_main_v20_apply, val_main_v19_apply,
    val_main_v18_apply, val_main_v22_apply, val_main_cst_2_apply, val_main_v24_apply, val_main_cst_3_apply,
    Ideal.addf_def, Ideal.mulf_def, Ideal.ofBits_def, Ideal.ofBits_def]
  have e : idx_main_v18 (idx_main_v19 (idx_main_v21 (ix2 n u))) = ix2 n (1 : Fin 3) :=
    funext fun a => by
      match a with
      | ⟨0, _⟩ => exact Fin.ext (Nat.div_one _)
      | ⟨1, _⟩ => rfl
  rw [e]
  rfl

/-- The row's x less the centre along the first axis. -/
theorem off0_apply (n : Fin 100000) (p : Fin 32) :
    val_main_v29 (F := Ideal) x0 x2 (ix2 n p)
      = x0 (ix3 n p (0 : Fin 4)) - centre (x2 (ix2 n (0 : Fin 3))) (Ideal.ofBits .f32 0x3DCCCCCD#32) := by
  rw [val_main_v29_apply, val_main_v27_apply, val_main_v26_apply, val_main_v28_apply, Ideal.subf_def]
  have e : idx_main_v26 (idx_main_v27 (ix2 n p)) = ix3 n p (0 : Fin 4) :=
    funext fun a => by
      match a with
      | ⟨0, _⟩ => exact Fin.ext (by have := p.isLt; show (n.val * 32 + p.val) / 32 = n.val; omega)
      | ⟨1, _⟩ => exact Fin.ext (by have := p.isLt; show (n.val * 32 + p.val) / 1 % 32 = p.val; omega)
      | ⟨2, _⟩ => rfl
  have e' : idx_main_v28 (ix2 n p) = ix2 n (0 : Fin 1) :=
    funext fun a => by match a with | ⟨0, _⟩ => rfl | ⟨1, _⟩ => rfl
  rw [e, e', centre0_apply]

/-- The row's y less the centre along the second axis. -/
theorem off1_apply (n : Fin 100000) (p : Fin 32) :
    val_main_v33 (F := Ideal) x0 x2 (ix2 n p)
      = x0 (ix3 n p (1 : Fin 4)) - centre (x2 (ix2 n (1 : Fin 3))) (Ideal.ofBits .f32 0xC1CC0000#32) := by
  rw [val_main_v33_apply, val_main_v31_apply, val_main_v30_apply, val_main_v32_apply, Ideal.subf_def]
  have e : idx_main_v30 (idx_main_v31 (ix2 n p)) = ix3 n p (1 : Fin 4) :=
    funext fun a => by
      match a with
      | ⟨0, _⟩ => exact Fin.ext (by have := p.isLt; show (n.val * 32 + p.val) / 32 = n.val; omega)
      | ⟨1, _⟩ => exact Fin.ext (by have := p.isLt; show (n.val * 32 + p.val) / 1 % 32 = p.val; omega)
      | ⟨2, _⟩ => rfl
  have e' : idx_main_v32 (ix2 n p) = ix2 n (0 : Fin 1) :=
    funext fun a => by match a with | ⟨0, _⟩ => rfl | ⟨1, _⟩ => rfl
  rw [e, e', centre1_apply]

/-! ## The nine features: the two joins along the last axis -/

/-- The pair of offsets, first entry. -/
theorem offs_apply0 (n : Fin 100000) (p : Fin 32) :
    val_main_v36 (F := Ideal) x0 x2 (ix3 n p (0 : Fin 2))
      = x0 (ix3 n p (0 : Fin 4)) - centre (x2 (ix2 n (0 : Fin 3))) (Ideal.ofBits .f32 0x3DCCCCCD#32) := by
  unfold val_main_v36
  refine (concatenate_pair_apply_left _ _ _ concatenates_S100000x32x1_S100000x32x1_S100000x32x2_d2
    (ix3 n p (0 : Fin 2)) rfl (ix3 n p (0 : Fin 1))
    (fun b => by match b with | ⟨0, _⟩ => rfl | ⟨1, _⟩ => rfl | ⟨2, _⟩ => rfl)).trans ?_
  rw [val_main_v34_apply]
  have e : idx_main_v34 (ix3 n p (0 : Fin 1)) = ix2 n p :=
    funext fun a => by match a with | ⟨0, _⟩ => rfl | ⟨1, _⟩ => rfl
  rw [e, off0_apply]

/-- The pair of offsets, second entry. -/
theorem offs_apply1 (n : Fin 100000) (p : Fin 32) :
    val_main_v36 (F := Ideal) x0 x2 (ix3 n p (1 : Fin 2))
      = x0 (ix3 n p (1 : Fin 4)) - centre (x2 (ix2 n (1 : Fin 3))) (Ideal.ofBits .f32 0xC1CC0000#32) := by
  unfold val_main_v36
  refine (concatenate_pair_apply_right _ _ _ concatenates_S100000x32x1_S100000x32x1_S100000x32x2_d2
    (ix3 n p (1 : Fin 2)) rfl rfl (ix3 n p (0 : Fin 1))
    (fun b => by
      match b with
      | ⟨0, _⟩ => exact fun _ => rfl
      | ⟨1, _⟩ => exact fun _ => rfl
      | ⟨2, _⟩ => exact fun hb => absurd (Fin.ext rfl) hb)
    rfl).trans ?_
  rw [val_main_v35_apply]
  have e : idx_main_v35 (ix3 n p (0 : Fin 1)) = ix2 n p :=
    funext fun a => by match a with | ⟨0, _⟩ => rfl | ⟨1, _⟩ => rfl
  rw [e, off1_apply]

/-- Features 0–3: the row itself. -/
theorem feat_row (n : Fin 100000) (p : Fin 32) (k : Fin 9) (h : k.val < 4) :
    val_main_v37 (F := Ideal) x0 x1 x2 (ix3 n p k) = x0 (ix3 n p ⟨k.val, h⟩) := by
  unfold val_main_v37
  exact concatenate_apply_piece (α := EReal) (2 : Fin S100000x32x9.rank)
    [⟨S100000x32x4, x0⟩, ⟨S100000x32x3, val_main_v9 (F := Ideal) x0 x1⟩, ⟨S100000x32x2, val_main_v36 (F := Ideal) x0 x2⟩]
    concatenates_S100000x32x4_S100000x32x3_S100000x32x2_S100000x32x9_d2
    (ix3 n p k) 0 (by show 0 < 3; decide) S100000x32x4 x0 rfl rfl 0 rfl (ix3 n p (⟨k.val, h⟩ : Fin 4))
    (fun b => by
      match b with
      | ⟨0, _⟩ => exact fun _ => rfl
      | ⟨1, _⟩ => exact fun _ => rfl
      | ⟨2, _⟩ => exact fun hb => absurd (Fin.ext rfl) hb)
    (Nat.zero_add _)

/-- Features 4–6: the centred x, y, z. -/
theorem feat_centred (n : Fin 100000) (p : Fin 32) (k : Fin 9) (h4 : ¬ k.val < 4) (h7 : k.val < 7) :
    val_main_v37 (F := Ideal) x0 x1 x2 (ix3 n p k)
      = val_main_v9 (F := Ideal) x0 x1 (ix3 n p (⟨k.val - 4, by omega⟩ : Fin 3)) := by
  unfold val_main_v37
  exact concatenate_apply_piece (α := EReal) (2 : Fin S100000x32x9.rank)
    [⟨S100000x32x4, x0⟩, ⟨S100000x32x3, val_main_v9 (F := Ideal) x0 x1⟩, ⟨S100000x32x2, val_main_v36 (F := Ideal) x0 x2⟩]
    concatenates_S100000x32x4_S100000x32x3_S100000x32x2_S100000x32x9_d2
    (ix3 n p k) 1 (by show 1 < 3; decide) S100000x32x3 (val_main_v9 (F := Ideal) x0 x1) rfl rfl 4 rfl
    (ix3 n p (⟨k.val - 4, by omega⟩ : Fin 3))
    (fun b => by
      match b with
      | ⟨0, _⟩ => exact fun _ => rfl
      | ⟨1, _⟩ => exact fun _ => rfl
      | ⟨2, _⟩ => exact fun hb => absurd (Fin.ext rfl) hb)
    (by show 4 + (k.val - 4) = k.val; omega)

/-- Features 7 and 8: the offsets from the cell's centre. -/
theorem feat_offs (n : Fin 100000) (p : Fin 32) (k : Fin 9) (h7 : ¬ k.val < 7) :
    val_main_v37 (F := Ideal) x0 x1 x2 (ix3 n p k)
      = val_main_v36 (F := Ideal) x0 x2 (ix3 n p (⟨k.val - 7, by have := k.isLt; omega⟩ : Fin 2)) := by
  unfold val_main_v37
  exact concatenate_apply_piece (α := EReal) (2 : Fin S100000x32x9.rank)
    [⟨S100000x32x4, x0⟩, ⟨S100000x32x3, val_main_v9 (F := Ideal) x0 x1⟩, ⟨S100000x32x2, val_main_v36 (F := Ideal) x0 x2⟩]
    concatenates_S100000x32x4_S100000x32x3_S100000x32x2_S100000x32x9_d2
    (ix3 n p k) 2 (by show 2 < 3; decide) S100000x32x2 (val_main_v36 (F := Ideal) x0 x2) rfl rfl 7 rfl
    (ix3 n p (⟨k.val - 7, by have := k.isLt; omega⟩ : Fin 2))
    (fun b => by
      match b with
      | ⟨0, _⟩ => exact fun _ => rfl
      | ⟨1, _⟩ => exact fun _ => rfl
      | ⟨2, _⟩ => exact fun hb => absurd (Fin.ext rfl) hb)
    (by show 7 + (k.val - 7) = k.val; omega)

/-- The nine features of a row, as the specification spells them. -/
theorem feat_apply (n : Fin 100000) (p : Fin 32) (k : Fin 9) :
    val_main_v37 (F := Ideal) x0 x1 x2 (ix3 n p k)
      = feat (cnt (x1 (ix1 n))) (pts x0 n) (x2 (ix2 n (0 : Fin 3))) (x2 (ix2 n (1 : Fin 3))) p k := by
  unfold feat
  by_cases h4 : k.val < 4
  · rw [dif_pos h4]
    exact feat_row x0 x1 x2 n p k h4
  · rw [dif_neg h4]
    by_cases h7 : k.val < 7
    · rw [dif_pos h7, feat_centred x0 x1 x2 n p k h4 h7, centred_apply]
      rfl
    · rw [dif_neg h7, feat_offs x0 x1 x2 n p k h7]
      by_cases h : k.val = 7
      · rw [if_pos h]
        have e : (⟨k.val - 7, by have := k.isLt; omega⟩ : Fin 2) = 0 := Fin.ext (by show k.val - 7 = 0; omega)
        rw [e, offs_apply0]
        rfl
      · rw [if_neg h]
        have e : (⟨k.val - 7, by have := k.isLt; omega⟩ : Fin 2) = 1 :=
          Fin.ext (by have := k.isLt; show k.val - 7 = 1; omega)
        rw [e, offs_apply1]
        rfl

/-! ## The mask, the scale and the shift -/

/-- The mask of row `p`: one when the pillar holds more than `p` points, whatever the feature. -/
theorem mask_apply (n : Fin 100000) (p : Fin 32) (k : Fin 9) :
    val_main_v46 (F := Ideal) x1 (ix3 n p k) = msk (x1 (ix1 n)) p := by
  rw [val_main_v46_apply, val_main_v45_apply, val_main_v44_apply, val_main_v43_apply, val_main_v41_apply,
    val_main_v38_apply, val_main_v42_apply, val_main_v40_apply, val_main_v39_apply]
  have e : idx_main_v38 (idx_main_v41 (idx_main_v44 (idx_main_v46 (ix3 n p k)))) = ix1 n :=
    funext fun a => by match a with | ⟨0, _⟩ => rfl
  rw [e]
  rfl

/-- A channel's scale. -/
theorem scale_apply (d : Fin 64) :
    val_main_v52 (F := Ideal) x4 x7 (ix1 d) = scale (x4 (ix1 d)) (x7 (ix1 d)) := by
  rw [val_main_v52_apply, val_main_v51_apply, val_main_v50_apply, val_main_v49_apply, val_main_cst_4_apply]
  rfl

/-- A channel's shift. -/
theorem shift_apply (d : Fin 64) :
    val_main_v57 (F := Ideal) x4 x5 x6 x7 (ix1 d) = shift (x4 (ix1 d)) (x5 (ix1 d)) (x6 (ix1 d)) (x7 (ix1 d)) := by
  rw [val_main_v57_apply, val_main_v56_apply, scale_apply]
  rfl

/-! ## The linear map, the affine map, the clamp and the maximum over the rows -/

/-- The masked features through the linear map: the contraction over the nine features. -/
theorem lin_apply (n : Fin 100000) (p : Fin 32) (d : Fin 64) :
    val_main_v48 (F := Ideal) x0 x1 x2 x3 (ix3 n p d)
      = ∑ k : Fin 9, (feat (cnt (x1 (ix1 n))) (pts x0 n) (x2 (ix2 n (0 : Fin 3))) (x2 (ix2 n (1 : Fin 3))) p k
          * msk (x1 (ix1 n)) p) * col x3 d k := by
  rw [val_main_v48_apply]
  refine Finset.sum_congr rfl fun k _ => ?_
  rw [val_main_v47_apply, Ideal.mulf_def]
  have el : lidx_main_v48 (ix3 n p d) k = ix3 n p k :=
    funext fun a => by match a with | ⟨0, _⟩ => rfl | ⟨1, _⟩ => rfl | ⟨2, _⟩ => rfl
  have er : ridx_main_v48 (ix3 n p d) k = ix2 k d :=
    funext fun a => by match a with | ⟨0, _⟩ => rfl | ⟨1, _⟩ => rfl
  rw [el, er, feat_apply, mask_apply]
  rfl

/-- The value before the clamp: the linear map's result times the scale, plus the shift. -/
theorem pre_apply (n : Fin 100000) (p : Fin 32) (d : Fin 64) :
    val_main_v60 (F := Ideal) x0 x1 x2 x3 x4 x5 x6 x7 (ix3 n p d)
      = preR (feat (cnt (x1 (ix1 n))) (pts x0 n) (x2 (ix2 n (0 : Fin 3))) (x2 (ix2 n (1 : Fin 3))) p)
          (msk (x1 (ix1 n)) p) (col x3 d) (x4 (ix1 d)) (x5 (ix1 d)) (x6 (ix1 d)) (x7 (ix1 d)) := by
  rw [val_main_v60_apply, val_main_v55_apply, val_main_v54_apply, val_main_v53_apply, val_main_v59_apply,
    val_main_v58_apply, Ideal.addf_def, Ideal.mulf_def]
  have e54 : idx_main_v53 (idx_main_v54 (ix3 n p d)) = ix1 d :=
    funext fun a => by match a with | ⟨0, _⟩ => rfl
  have e59 : idx_main_v58 (idx_main_v59 (ix3 n p d)) = ix1 d :=
    funext fun a => by match a with | ⟨0, _⟩ => rfl
  rw [e54, e59, scale_apply, shift_apply, lin_apply]
  rfl

/-- The clamp at zero. -/
theorem act_apply (n : Fin 100000) (p : Fin 32) (d : Fin 64) :
    val_main_v61 (F := Ideal) x0 x1 x2 x3 x4 x5 x6 x7 (ix3 n p d)
      = max (preR (feat (cnt (x1 (ix1 n))) (pts x0 n) (x2 (ix2 n (0 : Fin 3))) (x2 (ix2 n (1 : Fin 3))) p)
          (msk (x1 (ix1 n)) p) (col x3 d) (x4 (ix1 d)) (x5 (ix1 d)) (x6 (ix1 d)) (x7 (ix1 d)))
          (Ideal.ofBits .f32 0x00000000#32) := by
  rw [val_main_v61_apply, val_main_call0_v0_apply, val_main_call0_cst_apply, pre_apply]
  rfl

/-- The output entry `(n, d)` with row `p` put back on the reduced axis is the entry `(n, p, d)`. -/
theorem lift_apply (hR : S100000x32x64.Reduces [1] S100000x64) (n : Fin 100000) (d : Fin 64) (p : Fin 32) :
    hR.lift (ix2 n d) p = ix3 n p d :=
  funext fun c => Fin.ext (by
    match c with
    | ⟨0, _⟩ => rfl
    | ⟨1, _⟩ => rfl
    | ⟨2, _⟩ => rfl)

/-- The reference's program is `outR`: the maximum over the 32 rows, from -∞, of the clamped values. -/
theorem ref_eq :
    val_main_v62 (F := Ideal) x0 x1 x2 x3 x4 x5 x6 x7 = Cert.Pfn.outR x0 x1 x2 x3 x4 x5 x6 x7 := by
  funext i
  obtain ⟨n, d, rfl⟩ : ∃ (n : Fin 100000) (d : Fin 64), i = ix2 n d := ⟨i 0, i 1, eq_ix2 i⟩
  have hR : S100000x32x64.Reduces [1] S100000x64 := by decide
  unfold val_main_v62
  refine (Host.reduce_eq_fold_single (FloatOps.maximumf (F := Ideal) (φ := .f32))
    (val_main_v61 (F := Ideal) x0 x1 x2 x3 x4 x5 x6 x7) (val_main_cst_5 (F := Ideal))
    reducesTo_S100000x32x64_S100000x64_d1 hR h_S_ (ix2 n d)).trans ?_
  show Finset.fold max (Ideal.ofBits .f32 0xFF800000#32)
      (fun p : Fin 32 => val_main_v61 (F := Ideal) x0 x1 x2 x3 x4 x5 x6 x7 (hR.lift (ix2 n d) p))
      (Finset.univ : Finset (Fin 32)) = _
  unfold outR pooled
  refine congrArg (fun f => Finset.fold max (Ideal.ofBits .f32 0xFF800000#32) f (Finset.univ : Finset (Fin 32)))
    (funext fun p => ?_)
  rw [lift_apply, act_apply]

end Cert.Pfn.Ref

end
-- ==== Proof.Law.lean ====
/-
  The two spellings of the pillar feature net agree, entry by entry, when the rows, the coefficients and the
  channel gains are real numbers and the stored variances are real and not negative.

  The mask of a row is zero or one. Where it is zero every masked feature is zero and both sums vanish. Where it
  is one the point count is at least one, so raising it to at least one changes nothing; every feature, every
  coefficient and the channel's scale are then real numbers, and a finite sum of real products distributes over
  the scale.
-/
import proofs.«121473_j40235253629487_2_alg».proof.Proof.Spec
import Idealize.ShloMosaic.Lib.IdealHost

noncomputable section

namespace Cert.Pfn

open Idealize.ShloMosaic Idealize.ShloMosaic.ValueIdx

/-! ### Real numbers inside the extended reals -/

/-- An extended real that is a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.sum {ι : Type} (s : Finset ι) {f : ι → EReal} (hf : ∀ i, IsReal (f i)) : IsReal (∑ i ∈ s, f i) := by
  choose a ha using hf
  exact ⟨∑ i ∈ s, a i, by rw [coe_sum]; exact Finset.sum_congr rfl fun i _ => ha i⟩

/-- A quotient of a real by a real that is not zero is a real. -/
theorem IsReal.div {x : EReal} (hx : IsReal x) {y : ℝ} (hy : y ≠ 0) : IsReal (Ideal.div x (y : EReal)) := by
  rw [Ideal.div_coe hy]; exact hx.mul (IsReal.coe _)

/-! ### Bit patterns that are real numbers -/

/-- A single-precision pattern whose exponent field is not all ones is a real number. -/
theorem ieee_real (b : BitVec 32) (h : (b.extractLsb' 23 8).toNat ≠ 2 ^ 8 - 1) : IsReal (Ideal.ofBits .f32 b) := by
  show IsReal (Ideal.ieee 8 23 b)
  unfold Ideal.ieee
  simp only []
  rw [if_neg h]
  split_ifs <;> exact ⟨_, rfl⟩

/-- A single-precision pattern with a clear sign bit and an exponent field neither zero nor all ones is a positive
    real number. -/
theorem ieee_pos (b : BitVec 32) (hs : (b.extractLsb' (8 + 23) 1 == 1#1) = false)
    (h : (b.extractLsb' 23 8).toNat ≠ 2 ^ 8 - 1) (h0 : (b.extractLsb' 23 8).toNat ≠ 0) :
    ∃ r : ℝ, Ideal.ofBits .f32 b = (r : EReal) ∧ 0 < r := by
  show ∃ r : ℝ, Ideal.ieee 8 23 b = (r : EReal) ∧ 0 < r
  unfold Ideal.ieee
  simp only []
  rw [if_neg h, if_neg h0, hs]
  refine ⟨_, rfl, ?_⟩
  simp only [Bool.false_eq_true, if_false]
  positivity

theorem lit_width_real : IsReal (Ideal.ofBits .f32 0x3E4CCCCD#32) := ieee_real _ (by decide)
theorem lit_off0_real : IsReal (Ideal.ofBits .f32 0x3DCCCCCD#32) := ieee_real _ (by decide)
theorem lit_off1_real : IsReal (Ideal.ofBits .f32 0xC1CC0000#32) := ieee_real _ (by decide)
theorem lit_eps_pos : ∃ r : ℝ, Ideal.ofBits .f32 0x3A83126F#32 = (r : EReal) ∧ 0 < r :=
  ieee_pos _ (by decide) (by decide) (by decide)

/-! ### The mask and the point count -/

theorem cnt_eq (np : BitVec 32) : cnt np = ((np.toInt : ℝ) : EReal) := rfl

theorem ofNat_toInt_nonneg : ∀ p : Fin 32, 0 ≤ (BitVec.ofNat 32 p.val).toInt := by decide

/-- The mask of a row is zero, or it is one and the pillar holds at least one point. -/
theorem msk_cases (np : BitVec 32) (p : Fin 32) : msk np p = 0 ∨ (msk np p = 1 ∧ 1 ≤ np.toInt) := by
  have hm : msk np p = (((BitVec.ofBool ((BitVec.ofNat 32 p.val).slt np)).toNat : ℝ) : EReal) := rfl
  cases hb : (BitVec.ofNat 32 p.val).slt np with
  | false =>
    left; rw [hm, hb]
    show (((0 : ℕ) : ℝ) : EReal) = 0
    simp
  | true =>
    right
    refine ⟨?_, ?_⟩
    · rw [hm, hb]
      show (((1 : ℕ) : ℝ) : EReal) = 1
      simp
    · have hlt := BitVec.slt_iff_toInt_lt.mp hb
      have h0 := ofNat_toInt_nonneg p
      omega

/-- Raising a point count of at least one to at least one changes nothing. -/
theorem max_cnt_one {np : BitVec 32} (h : 1 ≤ np.toInt) :
    max (cnt np) (Ideal.ofBits .f32 0x3F800000#32) = cnt np := by
  rw [Ideal.ofBits_one_f32, cnt_eq]
  apply max_eq_left
  rw [← EReal.coe_one, EReal.coe_le_coe_iff]
  exact_mod_cast h

/-! ### The features, the scale, and the distributive step -/

theorem centre_real (c : BitVec 32) {off : EReal} (ho : IsReal off) : IsReal (centre c off) :=
  ((IsReal.coe _).mul lit_width_real).add ho

/-- With a point count that is not zero and real rows, every feature is a real number. -/
theorem feat_real {np : BitVec 32} (h : 1 ≤ np.toInt) {v : Fin 32 → Fin 4 → EReal} (hv : ∀ p c, IsReal (v p c))
    (c0 c1 : BitVec 32) (p : Fin 32) (k : Fin 9) : IsReal (feat (cnt np) v c0 c1 p k) := by
  have hne : ((np.toInt : ℝ)) ≠ 0 := by
    have : (1 : ℝ) ≤ (np.toInt : ℝ) := by exact_mod_cast h
    linarith
  unfold feat
  split_ifs
  · exact hv _ _
  · rw [cnt_eq]; exact (hv _ _).sub ((IsReal.sum _ fun p' => hv p' _).div hne)
  · exact (hv _ _).sub (centre_real _ lit_off0_real)
  · exact (hv _ _).sub (centre_real _ lit_off1_real)

/-- A real gain over the root of a variance that is not negative plus a positive number is a real number. -/
theorem scale_real {g var : EReal} (hg : IsReal g) (hvar : ∃ r : ℝ, var = (r : EReal) ∧ 0 ≤ r) :
    IsReal (scale g var) := by
  obtain ⟨r, rfl, hr⟩ := hvar
  obtain ⟨e, he, hpos⟩ := lit_eps_pos
  unfold scale
  rw [he, ← EReal.coe_add, Ideal.sqrt_coe, if_neg (by linarith)]
  exact hg.div (Real.sqrt_ne_zero'.mpr (by linarith))

/-- Where the mask is zero both spellings are the shift. -/
theorem pre_mask_zero (f f' : Fin 9 → EReal) (w : Fin 9 → EReal) (g b mu var : EReal) :
    preK f 0 w g b mu var = preR f' 0 w g b mu var := by
  simp [preK, preB, preR]

/-- Where the mask is one and everything is real, the scale comes out of the sum. -/
theorem pre_mask_one {f w : Fin 9 → EReal} (hf : ∀ k, IsReal (f k)) (hw : ∀ k, IsReal (w k)) {g var : EReal}
    (hs : IsReal (scale g var)) (b mu : EReal) : preK f 1 w g b mu var = preR f 1 w g b mu var := by
  choose a ha using hf
  choose c hc using hw
  obtain ⟨s, hs⟩ := hs
  unfold preK preB preR
  congr 1
  simp only [ha, hc, hs, mul_one, ← EReal.coe_mul, ← coe_sum]
  congr 1
  rw [Finset.sum_mul]
  exact Finset.sum_congr rfl fun k _ => by ring

/-! ### The two results agree -/

theorem outK_eq_outR (V : SV.Idx → EReal) (NP : SN.Idx → BitVec 32) (C : SC.Idx → BitVec 32) (W : SW.Idx → EReal)
    (g b mu var : SD.Idx → EReal)
    (hV : ∀ i, ∃ r : ℝ, V i = (r : EReal)) (hW : ∀ i, ∃ r : ℝ, W i = (r : EReal))
    (hg : ∀ i, ∃ r : ℝ, g i = (r : EReal))
    (hvar : ∀ i, ∃ r : ℝ, var i = (r : EReal) ∧ 0 ≤ r) :
    outK V NP C W g b mu var = outR V NP C W g b mu var := by
  funext i
  unfold outK outR
  refine congrArg pooled (funext fun p => ?_)
  rcases msk_cases (NP (ix1 (i 0))) p with h0 | ⟨h1, hnp⟩
  · rw [h0]; exact pre_mask_zero _ _ _ _ _ _ _
  · rw [h1, max_cnt_one hnp]
    exact pre_mask_one (feat_real hnp (fun p c => hV _) _ _ p) (fun k => hW _) (scale_real (hg _) (hvar _)) _ _

end Cert.Pfn

end
-- ==== Proof.PreFacts.lean ====
/-
  What the precondition says of the inputs: the rows, the coefficients and the gains are real numbers, and the
  stored variances are real numbers that are not negative.

  The precondition is a conjunction of seven tests, each "every entry passes": the absolute value of each entry of
  six of the arrays is below +∞, and each entry of the last array is at least zero. An extended real whose absolute
  value is below +∞ is a real number.
-/
import proofs.«121473_j40235253629487_2_alg».proof.Pre_finite_inputs
import Idealize.ShloMosaic.Lib.ReduceAll
import Idealize.ShloMosaic.Lib.ValueIdx
import Idealize.ShloMosaic.Lib.IdealHost
import Idealize.ShloMosaic.PureOps.Ideal.Laws

noncomputable section

namespace Cert.Pfn.Pre

open Idealize.ShloMosaic Idealize.ShloMosaic.ValueIdx Cert.Pre_finite_inputs

instance : Subsingleton S_.Idx := ⟨fun a b => funext fun d => d.elim0⟩

theorem ofBool_eq_one (b : Bool) : BitVec.ofBool b = 1#1 ↔ b = true := by cases b <;> decide

/-- The single-precision pattern of +∞ is the top element. -/
theorem ofBits_inf : Ideal.ofBits .f32 0x7F800000#32 = ⊤ := by simp [Ideal.ofBits, Ideal.ieee]

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [ofBits_inf] at h
  unfold Ideal.cmp at h
  rw [ofBool_eq_one, decide_eq_true_eq] at h
  induction x using EReal.rec with
  | bot => simp at h
  | coe r => exact ⟨r, rfl⟩
  | top => simp at h

/-- An extended real at least the pattern of zero is not negative. -/
theorem nonneg_of_ge (x : EReal) (h : Ideal.cmp .oge x (Ideal.ofBits .f32 0x00000000#32) = 1#1) : 0 ≤ x := by
  rw [Ideal.ofBits_zero_f32] at h
  unfold Ideal.cmp at h
  rw [ofBool_eq_one, decide_eq_true_eq] at h
  exact h

/-- "Every entry's absolute value is below +∞", read back: every entry is a real number. -/
theorem all_real {s : Shape} {axes : List (Fin s.rank)} (x : FVec Ideal s .f32) (hb : S_.BroadcastsInDim s ![])
    (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : ∃ r : ℝ, x i = (r : EReal) := by
  have hi := Host.reduce_andi_all _ _ hr hu ix0 e i
  rw [cmpf_apply, broadcastInDim_scalar_apply] at hi
  exact real_of_abs_lt (x i) hi

/-- "Every entry is at least zero", read back. -/
theorem all_nonneg {s : Shape} {axes : List (Fin s.rank)} (x : FVec Ideal s .f32) (hb : S_.BroadcastsInDim s ![])
    (hr : s.ReducesTo axes S_) (hu : 0 < S_.numel)
    (e : Host.reduce IntOp.andi (cmpf .oge x (broadcastInDim s ![] hb (constant S_ .f32 0x00000000#32)))
      (constantI S_ 1 1#1) hr hu ix0 = 1#1) (i : s.Idx) : 0 ≤ x i := by
  have hi := Host.reduce_andi_all _ _ hr hu ix0 e i
  rw [cmpf_apply, broadcastInDim_scalar_apply] at hi
  exact nonneg_of_ge (x i) hi

variable [Cert.Pre_finite_inputs.Facts]

/-- The precondition read back: rows, coefficients and gains real; variances real and not negative. -/
theorem pre_facts (x0 : FVec Ideal Cert.Pre_finite_inputs.S100000x32x4 .f32) (x1 : IVec S100000 32)
    (x2 : IVec S100000x3 32) (x3 : FVec Ideal S9x64 .f32) (x4 x5 x6 x7 : FVec Ideal S64 .f32)
    (h : Cert.Pre_finite_inputs.fn (F := Ideal) x0 x1 x2 x3 x4 x5 x6 x7 = fun _ => 1#1) :
    (∀ i, ∃ r : ℝ, x0 i = (r : EReal)) ∧ (∀ i, ∃ r : ℝ, x3 i = (r : EReal)) ∧ (∀ i, ∃ r : ℝ, x4 i = (r : EReal))
      ∧ (∀ i, ∃ r : ℝ, x7 i = (r : EReal) ∧ 0 ≤ r) := by
  have e := congrFun h ValueIdx.ix0
  dsimp only [fn, fn_part1] at e
  obtain ⟨e, h31⟩ := IntOp.andi_eq_one.mp e
  obtain ⟨e, h27⟩ := IntOp.andi_eq_one.mp e
  obtain ⟨e, -⟩ := IntOp.andi_eq_one.mp e
  obtain ⟨e, -⟩ := IntOp.andi_eq_one.mp e
  obtain ⟨e, h12⟩ := IntOp.andi_eq_one.mp e
  obtain ⟨h3, h7⟩ := IntOp.andi_eq_one.mp e
  refine ⟨all_real x0 _ _ _ h3, all_real x3 _ _ _ h7, all_real x4 _ _ _ h12, fun i => ?_⟩
  obtain ⟨r, hr⟩ := all_real x7 _ _ _ h27 i
  have h0 := all_nonneg x7 _ _ _ h31 i
  rw [hr] at h0
  exact ⟨r, hr, EReal.coe_nonneg.mp h0⟩

end Cert.Pfn.Pre

end
-- ==== Proof.lean ====
/-
  The pillar feature net, a kernel over blocks of 400 pillars against a whole-array reference, equal entry by entry
  on the extended reals.

  Both programs compute, for pillar `n` and channel `d`, the maximum over the pillar's 32 rows of the clamp at zero of
  an affine image of the row's nine masked features (Proof/Spec.lean). They differ in two places. The kernel folds
  each channel's scale `γ / √(σ² + ε)` into the coefficients of the linear map before the contraction, the reference
  applies it after; the two agree because the masked features, the coefficients and the scale are real numbers —
  the scale because the stored variance is real and not negative, so `σ² + ε > 0` — and a finite sum of real
  products distributes over a real factor. And the kernel divides the sums of x, y, z by the point count raised to at
  least one where the reference divides by the point count: a row whose mask is one belongs to a pillar with at
  least one point, where the two divisors are the same number, and a row whose mask is zero contributes zero on both
  sides whatever the mean is. (Proof/Law.lean.)

  The kernel's result array is read off its run block by block (Proof/Blocks.lean over Proof/KRow.lean, the body at
  one entry, and Proof/HostPrefix.lean, the arrays computed before the region); the reference's off its run one
  operation at a time (Proof/RefSide.lean); what the precondition says of the arrays is Proof/PreFacts.lean.
-/
import proofs.«121473_j40235253629487_2_alg».proof.Defs
import proofs.«121473_j40235253629487_2_alg».proof.Proof.Gen.Kernel
import proofs.«121473_j40235253629487_2_alg».proof.Proof.Gen.Kernel.Skeleton
import proofs.«121473_j40235253629487_2_alg».proof.Proof.Gen.Kernel.Launch
import proofs.«121473_j40235253629487_2_alg».proof.Proof.Gen.Kernel.Points
import proofs.«121473_j40235253629487_2_alg».proof.Proof.Gen.Kernel.Frame
import proofs.«121473_j40235253629487_2_alg».proof.Proof.Gen.KernelIdeal
import proofs.«121473_j40235253629487_2_alg».proof.Proof.Gen.KernelIdeal.Skeleton
import proofs.«121473_j40235253629487_2_alg».proof.Proof.Gen.KernelIdeal.Launch
import proofs.«121473_j40235253629487_2_alg».proof.Proof.Gen.KernelIdeal.Points
import proofs.«121473_j40235253629487_2_alg».proof.Proof.Gen.KernelIdeal.Frame
import proofs.«121473_j40235253629487_2_alg».proof.Proof.Gen.ReferenceIdeal
import proofs.«121473_j40235253629487_2_alg».proof.Proof.Gen.Pre_finite_inputs
import proofs.«121473_j40235253629487_2_alg».proof.Proof.Gen.KernelIdeal.Value
import proofs.«121473_j40235253629487_2_alg».proof.Proof.Gen.ReferenceIdeal.Run
import proofs.«121473_j40235253629487_2_alg».proof.Proof.Gen.ReferenceIdeal.Read
import proofs.«121473_j40235253629487_2_alg».proof.Proof.Blocks
import proofs.«121473_j40235253629487_2_alg».proof.Proof.RefSide
import proofs.«121473_j40235253629487_2_alg».proof.Proof.Law
import proofs.«121473_j40235253629487_2_alg».proof.Proof.PreFacts
import Idealize.ShloMosaic.Adequacy
import Idealize.ShloMosaic.Init

noncomputable section

namespace Cert.Proof

open Idealize.ShloMosaic Idealize.SL.Sem

/-- The word-level kernel runs and leaves its arguments as they were. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the eight arguments, under the precondition, the kernel's result array ends at
    `outK` of the arguments and the reference's at `outR` of them: one function, since the rows, the coefficients and
    the gains are real and the variances real and not negative. -/
theorem algebraic : Cert.algebraic_KernelIdeal_ReferenceIdeal := by
  intro m ρ m' ρ' hpre hagree
  refine ⟨fun c => Cert.Pfn.Ker.result m c, Cert.Pfn.Ker.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  obtain ⟨hV, hW, hg, hvar⟩ := Cert.Pfn.Pre.pre_facts _ _ _ _ _ _ _ _ (hpre c)
  rw [h0, h1, h2, h3, h4, h5, h6, h7]
  refine (Cert.ReferenceIdeal.Read.val_main_v62_eq _ _ _ _ _ _ _ _).trans ?_
  refine (Cert.Pfn.Ref.ref_eq _ _ _ _ _ _ _ _).trans ?_
  exact (Cert.Pfn.outK_eq_outR _ _ _ _ _ _ _ _ hV hW hg hvar).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
